-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v31)) (v4 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x30x32 : Shape := ⟨4, ![128, 256, 30, 32]⟩
abbrev S128x4x128x128 : Shape := ⟨4, ![128, 4, 128, 128]⟩
abbrev S128x8x15x16 : Shape := ⟨4, ![128, 8, 15, 16]⟩
abbrev S128x8x12 : Shape := ⟨3, ![128, 8, 12]⟩
abbrev S128x960x256 : Shape := ⟨3, ![128, 960, 256]⟩
abbrev S128x240x8 : Shape := ⟨3, ![128, 240, 8]⟩
abbrev S_ : Shape := ⟨0, ![]⟩

class Facts : Prop where
  bcast_S_S128x256x30x32 : S_.BroadcastsInDim S128x256x30x32 (![] : Fin 0 → Fin S128x256x30x32.rank)
  reducesTo_S128x256x30x32_S_d0_1_2_3 : S128x256x30x32.ReducesTo [0, 1, 2, 3] S_
  h_S_ : 0 < S_.numel
  bcast_S_S128x4x128x128 : S_.BroadcastsInDim S128x4x128x128 (![] : Fin 0 → Fin S128x4x128x128.rank)
  reducesTo_S128x4x128x128_S_d0_1_2_3 : S128x4x128x128.ReducesTo [0, 1, 2, 3] S_
  bcast_S_S128x8x15x16 : S_.BroadcastsInDim S128x8x15x16 (![] : Fin 0 → Fin S128x8x15x16.rank)
  reducesTo_S128x8x15x16_S_d0_1_2_3 : S128x8x15x16.ReducesTo [0, 1, 2, 3] S_
  bcast_S_S128x8x12 : S_.BroadcastsInDim S128x8x12 (![] : Fin 0 → Fin S128x8x12.rank)
  reducesTo_S128x8x12_S_d0_1_2 : S128x8x12.ReducesTo [0, 1, 2] S_
  bcast_S_S128x960x256 : S_.BroadcastsInDim S128x960x256 (![] : Fin 0 → Fin S128x960x256.rank)
  reducesTo_S128x960x256_S_d0_1_2 : S128x960x256.ReducesTo [0, 1, 2] S_
  bcast_S_S128x240x8 : S_.BroadcastsInDim S128x240x8 (![] : Fin 0 → Fin S128x240x8.rank)
  reducesTo_S128x240x8_S_d0_1_2 : S128x240x8.ReducesTo [0, 1, 2] S_

variable [Facts]

def fn_part1 {F : FTy → Type} [FloatOps F] (main_arg4 : FVec F S128x960x256 .f32) (main_arg5 : FVec F S128x240x8 .f32) (main_v13 : IVec S_ 1) (main_v16 : IVec S128x8x12 1) : IVec S_ 1 :=
  let main_c_5 : IVec S_ 1 := constantI S_ 1 1#1
  let main_v17 : IVec S_ 1 := (fun x v => Host.reduce IntOp.andi x v reducesTo_S128x8x12_S_d0_1_2 h_S_) main_v16 main_c_5
  let main_v18 : IVec S_ 1 := andi main_v13 main_v17
  let main_v19 : FVec F S128x960x256 .f32 := Host.absf main_arg4
  let main_cst_6 : FVec F S_ .f32 := constant S_ .f32 0x7F800000#32
  let main_v20 : FVec F S128x960x256 .f32 := broadcastInDim S128x960x256 ![] bcast_S_S128x960x256 main_cst_6
  let main_v21 : IVec S128x960x256 1 := cmpf .olt main_v19 main_v20
  let main_c_7 : IVec S_ 1 := constantI S_ 1 1#1
  let main_v22 : IVec S_ 1 := (fun x v => Host.reduce IntOp.andi x v reducesTo_S128x960x256_S_d0_1_2 h_S_) main_v21 main_c_7
  let main_v23 : IVec S_ 1 := andi main_v18 main_v22
  let main_v24 : FVec F S128x240x8 .f32 := Host.absf main_arg5
  let main_cst_8 : FVec F S_ .f32 := constant S_ .f32 0x7F800000#32
  let main_v25 : FVec F S128x240x8 .f32 := broadcastInDim S128x240x8 ![] bcast_S_S128x240x8 main_cst_8
  let main_v26 : IVec S128x240x8 1 := cmpf .olt main_v24 main_v25
  let main_c_9 : IVec S_ 1 := constantI S_ 1 1#1
  let main_v27 : IVec S_ 1 := (fun x v => Host.reduce IntOp.andi x v reducesTo_S128x240x8_S_d0_1_2 h_S_) main_v26 main_c_9
  let main_v28 : IVec S_ 1 := andi main_v23 main_v27
  main_v28

def fn {F : FTy → Type} [FloatOps F] (main_arg0 : FVec F S128x256x30x32 .f32) (main_arg1 : FVec F S128x4x128x128 .f32) (main_arg2 : FVec F S128x8x15x16 .f32) (main_arg3 : FVec F S128x8x12 .f32) (main_arg4 : FVec F S128x960x256 .f32) (main_arg5 : FVec F S128x240x8 .f32) : IVec S_ 1 :=
  let main_v0 : FVec F S128x256x30x32 .f32 := Host.absf main_arg0
  let main_cst : FVec F S_ .f32 := constant S_ .f32 0x7F800000#32
  let main_v1 : FVec F S128x256x30x32 .f32 := broadcastInDim S128x256x30x32 ![] bcast_S_S128x256x30x32 main_cst
  let main_v2 : IVec S128x256x30x32 1 := cmpf .olt main_v0 main_v1
  let main_c : IVec S_ 1 := constantI S_ 1 1#1
  let main_v3 : IVec S_ 1 := (fun x v => Host.reduce IntOp.andi x v reducesTo_S128x256x30x32_S_d0_1_2_3 h_S_) main_v2 main_c
  let main_v4 : FVec F S128x4x128x128 .f32 := Host.absf main_arg1
  let main_cst_0 : FVec F S_ .f32 := constant S_ .f32 0x7F800000#32
  let main_v5 : FVec F S128x4x128x128 .f32 := broadcastInDim S128x4x128x128 ![] bcast_S_S128x4x128x128 main_cst_0
  let main_v6 : IVec S128x4x128x128 1 := cmpf .olt main_v4 main_v5
  let main_c_1 : IVec S_ 1 := constantI S_ 1 1#1
  let main_v7 : IVec S_ 1 := (fun x v => Host.reduce IntOp.andi x v reducesTo_S128x4x128x128_S_d0_1_2_3 h_S_) main_v6 main_c_1
  let main_v8 : IVec S_ 1 := andi main_v3 main_v7
  let main_v9 : FVec F S128x8x15x16 .f32 := Host.absf main_arg2
  let main_cst_2 : FVec F S_ .f32 := constant S_ .f32 0x7F800000#32
  let main_v10 : FVec F S128x8x15x16 .f32 := broadcastInDim S128x8x15x16 ![] bcast_S_S128x8x15x16 main_cst_2
  let main_v11 : IVec S128x8x15x16 1 := cmpf .olt main_v9 main_v10
  let main_c_3 : IVec S_ 1 := constantI S_ 1 1#1
  let main_v12 : IVec S_ 1 := (fun x v => Host.reduce IntOp.andi x v reducesTo_S128x8x15x16_S_d0_1_2_3 h_S_) main_v11 main_c_3
  let main_v13 : IVec S_ 1 := andi main_v8 main_v12
  let main_v14 : FVec F S128x8x12 .f32 := Host.absf main_arg3
  let main_cst_4 : FVec F S_ .f32 := constant S_ .f32 0x7F800000#32
  let main_v15 : FVec F S128x8x12 .f32 := broadcastInDim S128x8x12 ![] bcast_S_S128x8x12 main_cst_4
  let main_v16 : IVec S128x8x12 1 := cmpf .olt main_v14 main_v15
  fn_part1 (F := F) main_arg4 main_arg5 main_v13 main_v16
-- ==== Kernel.lean ====
abbrev S128x256x30x32 : Shape := ⟨4, ![128, 256, 30, 32]⟩
abbrev S128x4x128x128 : Shape := ⟨4, ![128, 4, 128, 128]⟩
abbrev S128x8x15x16 : Shape := ⟨4, ![128, 8, 15, 16]⟩
abbrev S128x8x12 : Shape := ⟨3, ![128, 8, 12]⟩
abbrev S128x960x256 : Shape := ⟨3, ![128, 960, 256]⟩
abbrev S128x240x8 : Shape := ⟨3, ![128, 240, 8]⟩
abbrev S128x4x16x8x16x8 : Shape := ⟨6, ![128, 4, 16, 8, 16, 8]⟩
abbrev S128x16x16x8x8x4 : Shape := ⟨6, ![128, 16, 16, 8, 8, 4]⟩
abbrev S_ : Shape := ⟨0, ![]⟩
abbrev S128x16x16x8x8 : Shape := ⟨5, ![128, 16, 16, 8, 8]⟩
abbrev S128x16x16x8x8x1 : Shape := ⟨6, ![128, 16, 16, 8, 8, 1]⟩
abbrev S128x256x256 : Shape := ⟨3, ![128, 256, 256]⟩
abbrev S128x256x960 : Shape := ⟨3, ![128, 256, 960]⟩
abbrev S1x256x960 : Shape := ⟨3, ![1, 256, 960]⟩
abbrev S1x960x256 : Shape := ⟨3, ![1, 960, 256]⟩
abbrev S1x256x256 : Shape := ⟨3, ![1, 256, 256]⟩
abbrev S256x960 : Shape := ⟨2, ![256, 960]⟩
abbrev S960x256 : Shape := ⟨2, ![960, 256]⟩
abbrev S960 : Shape := ⟨1, ![960]⟩
abbrev S960x1 : Shape := ⟨2, ![960, 1]⟩
abbrev S256x256 : Shape := ⟨2, ![256, 256]⟩
abbrev S128x8x240 : Shape := ⟨3, ![128, 8, 240]⟩
abbrev S128x240 : Shape := ⟨2, ![128, 240]⟩
abbrev S128x240x1 : Shape := ⟨3, ![128, 240, 1]⟩
abbrev S128x240x12 : Shape := ⟨3, ![128, 240, 12]⟩
abbrev S128x15x16x4x3 : Shape := ⟨5, ![128, 15, 16, 4, 3]⟩
abbrev S128x15x2x16x4x3 : Shape := ⟨6, ![128, 15, 2, 16, 4, 3]⟩
abbrev S128x30x16x4x3 : Shape := ⟨5, ![128, 30, 16, 4, 3]⟩
abbrev S128x30x16x2x4x3 : Shape := ⟨6, ![128, 30, 16, 2, 4, 3]⟩
abbrev S128x30x32x4x3 : Shape := ⟨5, ![128, 30, 32, 4, 3]⟩
abbrev S128x960x4x3 : Shape := ⟨4, ![128, 960, 4, 3]⟩
abbrev S128x960x64x4 : Shape := ⟨4, ![128, 960, 64, 4]⟩
abbrev S128x960x64x3 : Shape := ⟨4, ![128, 960, 64, 3]⟩
abbrev S1x64x64x4 : Shape := ⟨4, ![1, 64, 64, 4]⟩
abbrev S1x64x4x3 : Shape := ⟨4, ![1, 64, 4, 3]⟩
abbrev S1x64x64x3 : Shape := ⟨4, ![1, 64, 64, 3]⟩
abbrev S64x64x4 : Shape := ⟨3, ![64, 64, 4]⟩
abbrev S64x4x3 : Shape := ⟨3, ![64, 4, 3]⟩
abbrev S64x64x3 : Shape := ⟨3, ![64, 64, 3]⟩
abbrev S64x64x1 : Shape := ⟨3, ![64, 64, 1]⟩
abbrev S64x1x3 : Shape := ⟨3, ![64, 1, 3]⟩
abbrev S128x30x32x8x8x3 : Shape := ⟨6, ![128, 30, 32, 8, 8, 3]⟩
abbrev S128x3x30x8x32x8 : Shape := ⟨6, ![128, 3, 30, 8, 32, 8]⟩
abbrev S128x3x240x256 : Shape := ⟨4, ![128, 3, 240, 256]⟩

abbrev nBuf : Space → Nat
  | .hbm => 58
  | .vmem => 16
  | .smem => 0
  | _ => 0

abbrev bufTy : (tb : Table) → Fin (tcTables nBuf tb) → BufTy
  | .hbm, ⟨0, _⟩ => ⟨S128x256x30x32, .f32⟩
  | .hbm, ⟨1, _⟩ => ⟨S128x4x128x128, .f32⟩
  | .hbm, ⟨2, _⟩ => ⟨S128x8x15x16, .f32⟩
  | .hbm, ⟨3, _⟩ => ⟨S128x8x12, .f32⟩
  | .hbm, ⟨4, _⟩ => ⟨S128x960x256, .f32⟩
  | .hbm, ⟨5, _⟩ => ⟨S128x240x8, .f32⟩
  | .hbm, ⟨6, _⟩ => ⟨S128x4x16x8x16x8, .f32⟩
  | .hbm, ⟨7, _⟩ => ⟨S128x16x16x8x8x4, .f32⟩
  | .hbm, ⟨8, _⟩ => ⟨S_, .f32⟩
  | .hbm, ⟨9, _⟩ => ⟨S128x16x16x8x8, .f32⟩
  | .hbm, ⟨10, _⟩ => ⟨S_, .f32⟩
  | .hbm, ⟨11, _⟩ => ⟨S128x16x16x8x8, .f32⟩
  | .hbm, ⟨12, _⟩ => ⟨S128x16x16x8x8, .f32⟩
  | .hbm, ⟨13, _⟩ => ⟨S128x16x16x8x8x1, .f32⟩
  | .hbm, ⟨14, _⟩ => ⟨S128x16x16x8x8x4, .f32⟩
  | .hbm, ⟨15, _⟩ => ⟨S128x16x16x8x8x4, .f32⟩
  | .hbm, ⟨16, _⟩ => ⟨S128x16x16x8x8x4, .f32⟩
  | .hbm, ⟨17, _⟩ => ⟨S_, .f32⟩
  | .hbm, ⟨18, _⟩ => ⟨S128x16x16x8x8, .f32⟩
  | .hbm, ⟨19, _⟩ => ⟨S128x16x16x8x8x1, .f32⟩
  | .hbm, ⟨20, _⟩ => ⟨S128x16x16x8x8x4, .f32⟩
  | .hbm, ⟨21, _⟩ => ⟨S128x16x16x8x8x4, .f32⟩
  | .hbm, ⟨22, _⟩ => ⟨S128x256x256, .f32⟩
  | .hbm, ⟨23, _⟩ => ⟨S128x256x960, .f32⟩
  | .hbm, ⟨24, _⟩ => ⟨S128x960x256, .f32⟩
  | .hbm, ⟨25, _⟩ => ⟨S128x960x256, .f32⟩
  | .hbm, ⟨26, _⟩ => ⟨S128x8x240, .f32⟩
  | .hbm, ⟨27, _⟩ => ⟨S128x240x8, .f32⟩
  | .hbm, ⟨28, _⟩ => ⟨S128x240x8, .f32⟩
  | .hbm, ⟨29, _⟩ => ⟨S_, .f32⟩
  | .hbm, ⟨30, _⟩ => ⟨S128x240x8, .f32⟩
  | .hbm, ⟨31, _⟩ => ⟨S128x240x8, .f32⟩
  | .hbm, ⟨32, _⟩ => ⟨S_, .f32⟩
  | .hbm, ⟨33, _⟩ => ⟨S128x240, .f32⟩
  | .hbm, ⟨34, _⟩ => ⟨S_, .f32⟩
  | .hbm, ⟨35, _⟩ => ⟨S128x240, .f32⟩
  | .hbm, ⟨36, _⟩ => ⟨S128x240, .f32⟩
  | .hbm, ⟨37, _⟩ => ⟨S128x240x1, .f32⟩
  | .hbm, ⟨38, _⟩ => ⟨S128x240x8, .f32⟩
  | .hbm, ⟨39, _⟩ => ⟨S128x240x8, .f32⟩
  | .hbm, ⟨40, _⟩ => ⟨S128x240x8, .f32⟩
  | .hbm, ⟨41, _⟩ => ⟨S_, .f32⟩
  | .hbm, ⟨42, _⟩ => ⟨S128x240, .f32⟩
  | .hbm, ⟨43, _⟩ => ⟨S128x240x1, .f32⟩
  | .hbm, ⟨44, _⟩ => ⟨S128x240x8, .f32⟩
  | .hbm, ⟨45, _⟩ => ⟨S128x240x8, .f32⟩
  | .hbm, ⟨46, _⟩ => ⟨S128x240x12, .f32⟩
  | .hbm, ⟨47, _⟩ => ⟨S128x15x16x4x3, .f32⟩
  | .hbm, ⟨48, _⟩ => ⟨S128x15x2x16x4x3, .f32⟩
  | .hbm, ⟨49, _⟩ => ⟨S128x30x16x4x3, .f32⟩
  | .hbm, ⟨50, _⟩ => ⟨S128x30x16x2x4x3, .f32⟩
  | .hbm, ⟨51, _⟩ => ⟨S128x30x32x4x3, .f32⟩
  | .hbm, ⟨52, _⟩ => ⟨S128x960x4x3, .f32⟩
  | .hbm, ⟨53, _⟩ => ⟨S128x960x64x4, .f32⟩
  | .hbm, ⟨54, _⟩ => ⟨S128x960x64x3, .f32⟩
  | .hbm, ⟨55, _⟩ => ⟨S128x30x32x8x8x3, .f32⟩
  | .hbm, ⟨56, _⟩ => ⟨S128x3x30x8x32x8, .f32⟩
  | .hbm, ⟨57, _⟩ => ⟨S128x3x240x256, .f32⟩
  | .local _ .vmem, ⟨0, _⟩ => ⟨S1x256x960, .f32⟩
  | .local _ .vmem, ⟨1, _⟩ => ⟨S1x256x960, .f32⟩
  | .local _ .vmem, ⟨2, _⟩ => ⟨S1x960x256, .f32⟩
  | .local _ .vmem, ⟨3, _⟩ => ⟨S1x960x256, .f32⟩
  | .local _ .vmem, ⟨4, _⟩ => ⟨S1x256x256, .f32⟩
  | .local _ .vmem, ⟨5, _⟩ => ⟨S1x256x256, .f32⟩
  | .local _ .vmem, ⟨6, _⟩ => ⟨S1x960x256, .f32⟩
  | .local _ .vmem, ⟨7, _⟩ => ⟨S1x960x256, .f32⟩
  | .local _ .vmem, ⟨8, _⟩ => ⟨S1x960x256, .f32⟩
  | .local _ .vmem, ⟨9, _⟩ => ⟨S1x960x256, .f32⟩
  | .local _ .vmem, ⟨10, _⟩ => ⟨S1x64x64x4, .f32⟩
  | .local _ .vmem, ⟨11, _⟩ => ⟨S1x64x64x4, .f32⟩
  | .local _ .vmem, ⟨12, _⟩ => ⟨S1x64x4x3, .f32⟩
  | .local _ .vmem, ⟨13, _⟩ => ⟨S1x64x4x3, .f32⟩
  | .local _ .vmem, ⟨14, _⟩ => ⟨S1x64x64x3, .f32⟩
  | .local _ .vmem, ⟨15, _⟩ => ⟨S1x64x64x3, .f32⟩
  | _, _ => ⟨S128x256x30x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x960x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x960x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x960x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![128, 15], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x64x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x64x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S128x4x128x128_S128x4x16x8x16x8 : S128x4x128x128.ShapeCasts S128x4x16x8x16x8
  transposes_S128x4x16x8x16x8_S128x16x16x8x8x4_0_2_4_3_5_1 : S128x4x16x8x16x8.Transposes [0, 2, 4, 3, 5, 1] S128x16x16x8x8x4
  reducesTo_S128x16x16x8x8x4_S128x16x16x8x8_d5 : S128x16x16x8x8x4.ReducesTo [5] S128x16x16x8x8
  h_S_ : 0 < S_.numel
  bcast_S_S128x16x16x8x8 : S_.BroadcastsInDim S128x16x16x8x8 (![] : Fin 0 → Fin S128x16x16x8x8.rank)
  bcast_S128x16x16x8x8_S128x16x16x8x8x1_0_1_2_3_4 : S128x16x16x8x8.BroadcastsInDim S128x16x16x8x8x1 (![0, 1, 2, 3, 4] : Fin 5 → Fin S128x16x16x8x8x1.rank)
  bcast_S128x16x16x8x8x1_S128x16x16x8x8x4_0_1_2_3_4_5 : S128x16x16x8x8x1.BroadcastsInDim S128x16x16x8x8x4 (![0, 1, 2, 3, 4, 5] : Fin 6 → Fin S128x16x16x8x8x4.rank)
  shapeCasts_S128x16x16x8x8x4_S128x256x256 : S128x16x16x8x8x4.ShapeCasts S128x256x256
  shapeCasts_S128x256x30x32_S128x256x960 : S128x256x30x32.ShapeCasts S128x256x960
  inb_S1x256x960_S1x256x960_0_0_0 : ∀ a, (![0, 0, 0] : Fin 3 → Nat) a + S1x256x960.size a ≤ S1x256x960.size a
  h_S1x256x960 : 0 < S1x256x960.numel
  shapeCasts_S1x256x960_S256x960 : S1x256x960.ShapeCasts S256x960
  transposes_S256x960_p1_0_S960x256 : S256x960.Transposes [1, 0] S960x256
  inb_S1x960x256_S1x960x256_0_0_0 : ∀ a, (![0, 0, 0] : Fin 3 → Nat) a + S1x960x256.size a ≤ S1x960x256.size a
  h_S1x960x256 : 0 < S1x960x256.numel
  shapeCasts_S1x960x256_S960x256 : S1x960x256.ShapeCasts S960x256
  reduces_S960x256_S960 : S960x256.Reduces [1] S960
  shapeCasts_S960_S960x1 : S960.ShapeCasts S960x1
  broadcasts_S960x1_S960x256 : S960x1.Broadcasts S960x256
  shapeCasts_S960x256_S1x960x256 : S960x256.ShapeCasts S1x960x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  shapeCasts_S128x8x15x16_S128x8x240 : S128x8x15x16.ShapeCasts S128x8x240
  transposes_S128x8x240_S128x240x8_0_2_1 : S128x8x240.Transposes [0, 2, 1] S128x240x8
  bcast_S_S128x240x8 : S_.BroadcastsInDim S128x240x8 (![] : Fin 0 → Fin S128x240x8.rank)
  reducesTo_S128x240x8_S128x240_d2 : S128x240x8.ReducesTo [2] S128x240
  bcast_S_S128x240 : S_.BroadcastsInDim S128x240 (![] : Fin 0 → Fin S128x240.rank)
  bcast_S128x240_S128x240x1_0_1 : S128x240.BroadcastsInDim S128x240x1 (![0, 1] : Fin 2 → Fin S128x240x1.rank)
  bcast_S128x240x1_S128x240x8_0_1_2 : S128x240x1.BroadcastsInDim S128x240x8 (![0, 1, 2] : Fin 3 → Fin S128x240x8.rank)
  shapeCasts_S128x240x12_S128x15x16x4x3 : S128x240x12.ShapeCasts S128x15x16x4x3
  bcast_S128x15x16x4x3_S128x15x2x16x4x3_0_1_3_4_5 : S128x15x16x4x3.BroadcastsInDim S128x15x2x16x4x3 (![0, 1, 3, 4, 5] : Fin 5 → Fin S128x15x2x16x4x3.rank)
  shapeCasts_S128x15x2x16x4x3_S128x30x16x4x3 : S128x15x2x16x4x3.ShapeCasts S128x30x16x4x3
  bcast_S128x30x16x4x3_S128x30x16x2x4x3_0_1_2_4_5 : S128x30x16x4x3.BroadcastsInDim S128x30x16x2x4x3 (![0, 1, 2, 4, 5] : Fin 5 → Fin S128x30x16x2x4x3.rank)
  shapeCasts_S128x30x16x2x4x3_S128x30x32x4x3 : S128x30x16x2x4x3.ShapeCasts S128x30x32x4x3
  shapeCasts_S128x30x32x4x3_S128x960x4x3 : S128x30x32x4x3.ShapeCasts S128x960x4x3
  shapeCasts_S128x960x256_S128x960x64x4 : S128x960x256.ShapeCasts S128x960x64x4
  inb_S1x64x64x4_S1x64x64x4_0_0_0_0 : ∀ a, (![0, 0, 0, 0] : Fin 4 → Nat) a + S1x64x64x4.size a ≤ S1x64x64x4.size a
  h_S1x64x64x4 : 0 < S1x64x64x4.numel
  shapeCasts_S1x64x64x4_S64x64x4 : S1x64x64x4.ShapeCasts S64x64x4
  inb_S1x64x4x3_S1x64x4x3_0_0_0_0 : ∀ a, (![0, 0, 0, 0] : Fin 4 → Nat) a + S1x64x4x3.size a ≤ S1x64x4x3.size a
  h_S1x64x4x3 : 0 < S1x64x4x3.numel
  shapeCasts_S1x64x4x3_S64x4x3 : S1x64x4x3.ShapeCasts S64x4x3
  slices_S64x64x4_o0_0_0_S64x64x1 : S64x64x4.Slices ![0, 0, 0] S64x64x1
  slices_S64x4x3_o0_0_0_S64x1x3 : S64x4x3.Slices ![0, 0, 0] S64x1x3
  broadcasts_S64x64x1_S64x64x3 : S64x64x1.Broadcasts S64x64x3
  broadcasts_S64x1x3_S64x64x3 : S64x1x3.Broadcasts S64x64x3
  slices_S64x64x4_o0_0_1_S64x64x1 : S64x64x4.Slices ![0, 0, 1] S64x64x1
  slices_S64x4x3_o0_1_0_S64x1x3 : S64x4x3.Slices ![0, 1, 0] S64x1x3
  slices_S64x64x4_o0_0_2_S64x64x1 : S64x64x4.Slices ![0, 0, 2] S64x64x1
  slices_S64x4x3_o0_2_0_S64x1x3 : S64x4x3.Slices ![0, 2, 0] S64x1x3
  slices_S64x64x4_o0_0_3_S64x64x1 : S64x64x4.Slices ![0, 0, 3] S64x64x1
  slices_S64x4x3_o0_3_0_S64x1x3 : S64x4x3.Slices ![0, 3, 0] S64x1x3
  inb_S1x64x64x3_S1x64x64x3_0_0_0_0 : ∀ a, (![0, 0, 0, 0] : Fin 4 → Nat) a + S1x64x64x3.size a ≤ S1x64x64x3.size a
  h_S1x64x64x3 : 0 < S1x64x64x3.numel
  shapeCasts_S1x64x64x3_S64x64x3 : S1x64x64x3.ShapeCasts S64x64x3
  shapeCasts_S64x64x3_S1x64x64x3 : S64x64x3.ShapeCasts S1x64x64x3
  shapeCasts_S128x960x64x3_S128x30x32x8x8x3 : S128x960x64x3.ShapeCasts S128x30x32x8x8x3
  transposes_S128x30x32x8x8x3_S128x3x30x8x32x8_0_5_1_3_2_4 : S128x30x32x8x8x3.Transposes [0, 5, 1, 3, 2, 4] S128x3x30x8x32x8
  shapeCasts_S128x3x30x8x32x8_S128x3x240x256 : S128x3x30x8x32x8.ShapeCasts S128x3x240x256
  dot_S960x256_S256x256_S960x256_1_0_0_1_n_n_wf : DotDims.WF S960x256 S256x256 S960x256 [1] [0] [0] [1] [] []
  dot_S128x240x8_S128x8x12_S128x240x12_2_1_1_2_0_0_wf : DotDims.WF S128x240x8 S128x8x12 S128x240x12 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x960.size a ≤ S128x256x960.size a
  hwx0_0 : ∀ i : grid0.Coords, EltTy.bits .f32 = 32 ∨ (Rect.block (s := S128x256x960) S1x256x960.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x960x256.size a ≤ S128x960x256.size a
  hwx0_1 : ∀ i : grid0.Coords, EltTy.bits .f32 = 32 ∨ (Rect.block (s := S128x960x256) S1x960x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S128x256x256.size a
  hwx0_2 : ∀ i : grid0.Coords, EltTy.bits .f32 = 32 ∨ (Rect.block (s := S128x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x960x256.size a ≤ S128x960x256.size a
  hwx0_3 : ∀ i : grid0.Coords, EltTy.bits .f32 = 32 ∨ (Rect.block (s := S128x960x256) S1x960x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x960x256.size a ≤ S128x960x256.size a
  hwx0_4 : ∀ i : grid0.Coords, EltTy.bits .f32 = 32 ∨ (Rect.block (s := S128x960x256) S1x960x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x4.size a ≤ S128x960x64x4.size a
  hwx1_0 : ∀ i : grid1.Coords, EltTy.bits .f32 = 32 ∨ (Rect.block (s := S128x960x64x4) S1x64x64x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4x3.size a ≤ S128x960x4x3.size a
  hwx1_1 : ∀ i : grid1.Coords, EltTy.bits .f32 = 32 ∨ (Rect.block (s := S128x960x4x3) S1x64x4x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64x3.size a ≤ S128x960x64x3.size a
  hwx1_2 : ∀ i : grid1.Coords, EltTy.bits .f32 = 32 ∨ (Rect.block (s := S128x960x64x3) S1x64x64x3.size (cc1_transform_2 i) (hinb1_2 i)).WholeWords (EltTy.packing .f32)

variable [Facts₀]

def dot_S960x256_S256x256_S960x256_1_0_0_1_n_n : DotDims S960x256 S256x256 S960x256 where
  lhsContracting := [1]
  rhsContracting := [0]
  lhsNonContracting := [0]
  rhsNonContracting := [1]
  lhsBatch := []
  rhsBatch := []
  wf := dot_S960x256_S256x256_S960x256_1_0_0_1_n_n_wf
def dot_S128x240x8_S128x8x12_S128x240x12_2_1_1_2_0_0 : DotDims S128x240x8 S128x8x12 S128x240x12 where
  lhsContracting := [2]
  rhsContracting := [1]
  lhsNonContracting := [1]
  rhsNonContracting := [2]
  lhsBatch := [0]
  rhsBatch := [0]
  wf := dot_S128x240x8_S128x8x12_S128x240x12_2_1_1_2_0_0_wf

abbrev win0_0 : Pipeline.Window sig grid0 :=
  Pipeline.Window.ofSpec (Memref.whole main_v14) S1x256x960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x960x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1x960x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1x960x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S1x64x64x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x64x4x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x64x64x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128x256x30x32 : Shape := ⟨4, ![128, 256, 30, 32]⟩
abbrev S128x4x128x128 : Shape := ⟨4, ![128, 4, 128, 128]⟩
abbrev S128x8x15x16 : Shape := ⟨4, ![128, 8, 15, 16]⟩
abbrev S128x8x12 : Shape := ⟨3, ![128, 8, 12]⟩
abbrev S128x960x256 : Shape := ⟨3, ![128, 960, 256]⟩
abbrev S128x240x8 : Shape := ⟨3, ![128, 240, 8]⟩
abbrev S128x256x960 : Shape := ⟨3, ![128, 256, 960]⟩
abbrev S_ : Shape := ⟨0, ![]⟩
abbrev S128x960 : Shape := ⟨2, ![128, 960]⟩
abbrev S128x960x1 : Shape := ⟨3, ![128, 960, 1]⟩
abbrev S128x4x16x8x16x8 : Shape := ⟨6, ![128, 4, 16, 8, 16, 8]⟩
abbrev S128x16x16x8x8x4 : Shape := ⟨6, ![128, 16, 16, 8, 8, 4]⟩
abbrev S128x16x16x8x8 : Shape := ⟨5, ![128, 16, 16, 8, 8]⟩
abbrev S128x16x16x8x8x1 : Shape := ⟨6, ![128, 16, 16, 8, 8, 1]⟩
abbrev S128x256x256 : Shape := ⟨3, ![128, 256, 256]⟩
abbrev S128x8x240 : Shape := ⟨3, ![128, 8, 240]⟩
abbrev S128x240 : Shape := ⟨2, ![128, 240]⟩
abbrev S128x240x1 : Shape := ⟨3, ![128, 240, 1]⟩
abbrev S128x960x64x4x1 : Shape := ⟨5, ![128, 960, 64, 4, 1]⟩
abbrev S128x240x12 : Shape := ⟨3, ![128, 240, 12]⟩
abbrev S128x15x16x4x3 : Shape := ⟨5, ![128, 15, 16, 4, 3]⟩
abbrev S128x15x2x16x4x3 : Shape := ⟨6, ![128, 15, 2, 16, 4, 3]⟩
abbrev S128x30x16x4x3 : Shape := ⟨5, ![128, 30, 16, 4, 3]⟩
abbrev S128x30x16x2x4x3 : Shape := ⟨6, ![128, 30, 16, 2, 4, 3]⟩
abbrev S128x30x32x4x3 : Shape := ⟨5, ![128, 30, 32, 4, 3]⟩
abbrev S128x960x1x4x3 : Shape := ⟨5, ![128, 960, 1, 4, 3]⟩
abbrev S128x960x64x4x3 : Shape := ⟨5, ![128, 960, 64, 4, 3]⟩
abbrev S128x960x64x3 : Shape := ⟨4, ![128, 960, 64, 3]⟩
abbrev S128x30x32x8x8x3 : Shape := ⟨6, ![128, 30, 32, 8, 8, 3]⟩
abbrev S128x3x30x8x32x8 : Shape := ⟨6, ![128, 3, 30, 8, 32, 8]⟩
abbrev S128x3x240x256 : Shape := ⟨4, ![128, 3, 240, 256]⟩

abbrev nBuf : Space → Nat
  | .hbm => 88
  | .vmem => 0
  | .smem => 0
  | _ => 0

abbrev bufTy : (tb : Table) → Fin (tcTables nBuf tb) → BufTy
  | .hbm, ⟨0, _⟩ => ⟨S128x256x30x32, .f32⟩
  | .hbm, ⟨1, _⟩ => ⟨S128x4x128x128, .f32⟩
  | .hbm, ⟨2, _⟩ => ⟨S128x8x15x16, .f32⟩
  | .hbm, ⟨3, _⟩ => ⟨S128x8x12, .f32⟩
  | .hbm, ⟨4, _⟩ => ⟨S128x960x256, .f32⟩
  | .hbm, ⟨5, _⟩ => ⟨S128x240x8, .f32⟩
  | .hbm, ⟨6, _⟩ => ⟨S128x256x960, .f32⟩
  | .hbm, ⟨7, _⟩ => ⟨S128x960x256, .f32⟩
  | .hbm, ⟨8, _⟩ => ⟨S128x960x256, .f32⟩
  | .hbm, ⟨9, _⟩ => ⟨S_, .f32⟩
  | .hbm, ⟨10, _⟩ => ⟨S128x960x256, .f32⟩
  | .hbm, ⟨11, _⟩ => ⟨S128x960x256, .f32⟩
  | .hbm, ⟨12, _⟩ => ⟨S_, .f32⟩
  | .hbm, ⟨13, _⟩ => ⟨S128x960, .f32⟩
  | .hbm, ⟨14, _⟩ => ⟨S_, .f32⟩
  | .hbm, ⟨15, _⟩ => ⟨S128x960, .f32⟩
  | .hbm, ⟨16, _⟩ => ⟨S128x960, .f32⟩
  | .hbm, ⟨17, _⟩ => ⟨S128x960x1, .f32⟩
  | .hbm, ⟨18, _⟩ => ⟨S128x960x256, .f32⟩
  | .hbm, ⟨19, _⟩ => ⟨S128x960x256, .f32⟩
  | .hbm, ⟨20, _⟩ => ⟨S128x960x256, .f32⟩
  | .hbm, ⟨21, _⟩ => ⟨S_, .f32⟩
  | .hbm, ⟨22, _⟩ => ⟨S128x960, .f32⟩
  | .hbm, ⟨23, _⟩ => ⟨S128x960x1, .f32⟩
  | .hbm, ⟨24, _⟩ => ⟨S128x960x256, .f32⟩
  | .hbm, ⟨25, _⟩ => ⟨S128x960x256, .f32⟩
  | .hbm, ⟨26, _⟩ => ⟨S128x4x16x8x16x8, .f32⟩
  | .hbm, ⟨27, _⟩ => ⟨S128x16x16x8x8x4, .f32⟩
  | .hbm, ⟨28, _⟩ => ⟨S_, .f32⟩
  | .hbm, ⟨29, _⟩ => ⟨S128x16x16x8x8, .f32⟩
  | .hbm, ⟨30, _⟩ => ⟨S_, .f32⟩
  | .hbm, ⟨31, _⟩ => ⟨S128x16x16x8x8, .f32⟩
  | .hbm, ⟨32, _⟩ => ⟨S128x16x16x8x8, .f32⟩
  | .hbm, ⟨33, _⟩ => ⟨S128x16x16x8x8x1, .f32⟩
  | .hbm, ⟨34, _⟩ => ⟨S128x16x16x8x8x4, .f32⟩
  | .hbm, ⟨35, _⟩ => ⟨S128x16x16x8x8x4, .f32⟩
  | .hbm, ⟨36, _⟩ => ⟨S128x16x16x8x8x4, .f32⟩
  | .hbm, ⟨37, _⟩ => ⟨S_, .f32⟩
  | .hbm, ⟨38, _⟩ => ⟨S128x16x16x8x8, .f32⟩
  | .hbm, ⟨39, _⟩ => ⟨S128x16x16x8x8x1, .f32⟩
  | .hbm, ⟨40, _⟩ => ⟨S128x16x16x8x8x4, .f32⟩
  | .hbm, ⟨41, _⟩ => ⟨S128x16x16x8x8x4, .f32⟩
  | .hbm, ⟨42, _⟩ => ⟨S128x256x256, .f32⟩
  | .hbm, ⟨43, _⟩ => ⟨S128x8x240, .f32⟩
  | .hbm, ⟨44, _⟩ => ⟨S128x240x8, .f32⟩
  | .hbm, ⟨45, _⟩ => ⟨S128x240x8, .f32⟩
  | .hbm, ⟨46, _⟩ => ⟨S_, .f32⟩
  | .hbm, ⟨47, _⟩ => ⟨S128x240x8, .f32⟩
  | .hbm, ⟨48, _⟩ => ⟨S128x240x8, .f32⟩
  | .hbm, ⟨49, _⟩ => ⟨S_, .f32⟩
  | .hbm, ⟨50, _⟩ => ⟨S128x240, .f32⟩
  | .hbm, ⟨51, _⟩ => ⟨S_, .f32⟩
  | .hbm, ⟨52, _⟩ => ⟨S128x240, .f32⟩
  | .hbm, ⟨53, _⟩ => ⟨S128x240, .f32⟩
  | .hbm, ⟨54, _⟩ => ⟨S128x240x1, .f32⟩
  | .hbm, ⟨55, _⟩ => ⟨S128x240x8, .f32⟩
  | .hbm, ⟨56, _⟩ => ⟨S128x240x8, .f32⟩
  | .hbm, ⟨57, _⟩ => ⟨S128x240x8, .f32⟩
  | .hbm, ⟨58, _⟩ => ⟨S_, .f32⟩
  | .hbm, ⟨59, _⟩ => ⟨S128x240, .f32⟩
  | .hbm, ⟨60, _⟩ => ⟨S128x240x1, .f32⟩
  | .hbm, ⟨61, _⟩ => ⟨S128x240x8, .f32⟩
  | .hbm, ⟨62, _⟩ => ⟨S128x240x8, .f32⟩
  | .hbm, ⟨63, _⟩ => ⟨S128x960x256, .f32⟩
  | .hbm, ⟨64, _⟩ => ⟨S128x960x64x4x1, .f32⟩
  | .hbm, ⟨65, _⟩ => ⟨S128x240x12, .f32⟩
  | .hbm, ⟨66, _⟩ => ⟨S128x15x16x4x3, .f32⟩
  | .hbm, ⟨67, _⟩ => ⟨S128x15x2x16x4x3, .f32⟩
  | .hbm, ⟨68, _⟩ => ⟨S128x30x16x4x3, .f32⟩
  | .hbm, ⟨69, _⟩ => ⟨S128x30x16x2x4x3, .f32⟩
  | .hbm, ⟨70, _⟩ => ⟨S128x30x32x4x3, .f32⟩
  | .hbm, ⟨71, _⟩ => ⟨S128x960x1x4x3, .f32⟩
  | .hbm, ⟨72, _⟩ => ⟨S128x960x64x4x3, .f32⟩
  | .hbm, ⟨73, _⟩ => ⟨S128x960x64x4x3, .f32⟩
  | .hbm, ⟨74, _⟩ => ⟨S128x960x64x4x3, .f32⟩
  | .hbm, ⟨75, _⟩ => ⟨S_, .f32⟩
  | .hbm, ⟨76, _⟩ => ⟨S128x960x64x3, .f32⟩
  | .hbm, ⟨77, _⟩ => ⟨S128x30x32x8x8x3, .f32⟩
  | .hbm, ⟨78, _⟩ => ⟨S128x3x30x8x32x8, .f32⟩
  | .hbm, ⟨79, _⟩ => ⟨S128x3x240x256, .f32⟩
  | .hbm, ⟨80, _⟩ => ⟨S128x3x240x256, .f32⟩
  | .hbm, ⟨81, _⟩ => ⟨S128x3x240x256, .f32⟩
  | .hbm, ⟨82, _⟩ => ⟨S_, .f32⟩
  | .hbm, ⟨83, _⟩ => ⟨S128x3x240x256, .f32⟩
  | .hbm, ⟨84, _⟩ => ⟨S128x3x240x256, .f32⟩
  | .hbm, ⟨85, _⟩ => ⟨S_, .f32⟩
  | .hbm, ⟨86, _⟩ => ⟨S128x3x240x256, .f32⟩
  | .hbm, ⟨87, _⟩ => ⟨S128x3x240x256, .f32⟩
  | _, _ => ⟨S128x256x30x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  shapeCasts_S128x256x30x32_S128x256x960 : S128x256x30x32.ShapeCasts S128x256x960
  transposes_S128x256x960_S128x960x256_0_2_1 : S128x256x960.Transposes [0, 2, 1] S128x960x256
  bcast_S_S128x960x256 : S_.BroadcastsInDim S128x960x256 (![] : Fin 0 → Fin S128x960x256.rank)
  reducesTo_S128x960x256_S128x960_d2 : S128x960x256.ReducesTo [2] S128x960
  h_S_ : 0 < S_.numel
  bcast_S_S128x960 : S_.BroadcastsInDim S128x960 (![] : Fin 0 → Fin S128x960.rank)
  bcast_S128x960_S128x960x1_0_1 : S128x960.BroadcastsInDim S128x960x1 (![0, 1] : Fin 2 → Fin S128x960x1.rank)
  bcast_S128x960x1_S128x960x256_0_1_2 : S128x960x1.BroadcastsInDim S128x960x256 (![0, 1, 2] : Fin 3 → Fin S128x960x256.rank)
  shapeCasts_S128x4x128x128_S128x4x16x8x16x8 : S128x4x128x128.ShapeCasts S128x4x16x8x16x8
  transposes_S128x4x16x8x16x8_S128x16x16x8x8x4_0_2_4_3_5_1 : S128x4x16x8x16x8.Transposes [0, 2, 4, 3, 5, 1] S128x16x16x8x8x4
  reducesTo_S128x16x16x8x8x4_S128x16x16x8x8_d5 : S128x16x16x8x8x4.ReducesTo [5] S128x16x16x8x8
  bcast_S_S128x16x16x8x8 : S_.BroadcastsInDim S128x16x16x8x8 (![] : Fin 0 → Fin S128x16x16x8x8.rank)
  bcast_S128x16x16x8x8_S128x16x16x8x8x1_0_1_2_3_4 : S128x16x16x8x8.BroadcastsInDim S128x16x16x8x8x1 (![0, 1, 2, 3, 4] : Fin 5 → Fin S128x16x16x8x8x1.rank)
  bcast_S128x16x16x8x8x1_S128x16x16x8x8x4_0_1_2_3_4_5 : S128x16x16x8x8x1.BroadcastsInDim S128x16x16x8x8x4 (![0, 1, 2, 3, 4, 5] : Fin 6 → Fin S128x16x16x8x8x4.rank)
  shapeCasts_S128x16x16x8x8x4_S128x256x256 : S128x16x16x8x8x4.ShapeCasts S128x256x256
  shapeCasts_S128x8x15x16_S128x8x240 : S128x8x15x16.ShapeCasts S128x8x240
  transposes_S128x8x240_S128x240x8_0_2_1 : S128x8x240.Transposes [0, 2, 1] S128x240x8
  bcast_S_S128x240x8 : S_.BroadcastsInDim S128x240x8 (![] : Fin 0 → Fin S128x240x8.rank)
  reducesTo_S128x240x8_S128x240_d2 : S128x240x8.ReducesTo [2] S128x240
  bcast_S_S128x240 : S_.BroadcastsInDim S128x240 (![] : Fin 0 → Fin S128x240.rank)
  bcast_S128x240_S128x240x1_0_1 : S128x240.BroadcastsInDim S128x240x1 (![0, 1] : Fin 2 → Fin S128x240x1.rank)
  bcast_S128x240x1_S128x240x8_0_1_2 : S128x240x1.BroadcastsInDim S128x240x8 (![0, 1, 2] : Fin 3 → Fin S128x240x8.rank)
  shapeCasts_S128x960x256_S128x960x64x4x1 : S128x960x256.ShapeCasts S128x960x64x4x1
  shapeCasts_S128x240x12_S128x15x16x4x3 : S128x240x12.ShapeCasts S128x15x16x4x3
  bcast_S128x15x16x4x3_S128x15x2x16x4x3_0_1_3_4_5 : S128x15x16x4x3.BroadcastsInDim S128x15x2x16x4x3 (![0, 1, 3, 4, 5] : Fin 5 → Fin S128x15x2x16x4x3.rank)
  shapeCasts_S128x15x2x16x4x3_S128x30x16x4x3 : S128x15x2x16x4x3.ShapeCasts S128x30x16x4x3
  bcast_S128x30x16x4x3_S128x30x16x2x4x3_0_1_2_4_5 : S128x30x16x4x3.BroadcastsInDim S128x30x16x2x4x3 (![0, 1, 2, 4, 5] : Fin 5 → Fin S128x30x16x2x4x3.rank)
  shapeCasts_S128x30x16x2x4x3_S128x30x32x4x3 : S128x30x16x2x4x3.ShapeCasts S128x30x32x4x3
  shapeCasts_S128x30x32x4x3_S128x960x1x4x3 : S128x30x32x4x3.ShapeCasts S128x960x1x4x3
  bcast_S128x960x64x4x1_S128x960x64x4x3_0_1_2_3_4 : S128x960x64x4x1.BroadcastsInDim S128x960x64x4x3 (![0, 1, 2, 3, 4] : Fin 5 → Fin S128x960x64x4x3.rank)
  bcast_S128x960x1x4x3_S128x960x64x4x3_0_1_2_3_4 : S128x960x1x4x3.BroadcastsInDim S128x960x64x4x3 (![0, 1, 2, 3, 4] : Fin 5 → Fin S128x960x64x4x3.rank)
  reducesTo_S128x960x64x4x3_S128x960x64x3_d3 : S128x960x64x4x3.ReducesTo [3] S128x960x64x3
  shapeCasts_S128x960x64x3_S128x30x32x8x8x3 : S128x960x64x3.ShapeCasts S128x30x32x8x8x3
  transposes_S128x30x32x8x8x3_S128x3x30x8x32x8_0_5_1_3_2_4 : S128x30x32x8x8x3.Transposes [0, 5, 1, 3, 2, 4] S128x3x30x8x32x8
  shapeCasts_S128x3x30x8x32x8_S128x3x240x256 : S128x3x30x8x32x8.ShapeCasts S128x3x240x256
  bcast_S_S128x3x240x256 : S_.BroadcastsInDim S128x3x240x256 (![] : Fin 0 → Fin S128x3x240x256.rank)
  dot_S128x960x256_S128x256x256_S128x960x256_2_1_1_2_0_0_wf : DotDims.WF S128x960x256 S128x256x256 S128x960x256 [2] [1] [1] [2] [0] [0]
  dot_S128x240x8_S128x8x12_S128x240x12_2_1_1_2_0_0_wf : DotDims.WF S128x240x8 S128x8x12 S128x240x12 [2] [1] [1] [2] [0] [0]

variable [Facts₀]

def dot_S128x960x256_S128x256x256_S128x960x256_2_1_1_2_0_0 : DotDims S128x960x256 S128x256x256 S128x960x256 where
  lhsContracting := [2]
  rhsContracting := [1]
  lhsNonContracting := [1]
  rhsNonContracting := [2]
  lhsBatch := [0]
  rhsBatch := [0]
  wf := dot_S128x960x256_S128x256x256_S128x960x256_2_1_1_2_0_0_wf
def dot_S128x240x8_S128x8x12_S128x240x12_2_1_1_2_0_0 : DotDims S128x240x8 S128x8x12 S128x240x12 where
  lhsContracting := [2]
  rhsContracting := [1]
  lhsNonContracting := [1]
  rhsNonContracting := [2]
  lhsBatch := [0]
  rhsBatch := [0]
  wf := dot_S128x240x8_S128x8x12_S128x240x12_2_1_1_2_0_0_wf

class Facts : Prop extends Facts₀ where

variable [Facts]
-- ==== Proof.Scalars.lean ====
/-
  The scalars and the row law shared by the two programs of the tile decoder.

  Both programs scale the tile-name logits by the temperature 2: one multiplies by the binary word of one half, the
  other divides by the word of two; on every extended real these are one function. Both take a row's softmax through
  the row maximum: `exp (l j - M) / ∑ k, exp (l k - M)` with `M` the fold of `max` from −∞ over the row. Both
  squash with `1 / (1 + exp (-y))`, one spelling the negation `0 - y`.
-/
import Idealize.ShloMosaic.PureOps.Ideal
import Idealize.ShloMosaic.PureOps.Ideal.Laws

noncomputable section

namespace Cert.Decoder

open Idealize.ShloMosaic

/-- The word `0x3F000000` denotes one half. -/
theorem ofBits_half : Ideal.ofBits .f32 0x3F000000#32 = ((1 / 2 : ℝ) : EReal) := by
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- The word `0xFF800000` denotes −∞. -/
theorem ofBits_negInf : Ideal.ofBits .f32 0xFF800000#32 = (⊥ : EReal) := by
  simp [Ideal.ofBits, Ideal.ieee]

/-- The word `0x00000000` denotes zero. -/
theorem ofBits_zero : Ideal.ofBits .f32 0x00000000#32 = (0 : EReal) := by
  simp [Ideal.ofBits, Ideal.ieee]

/-- Multiplying by the word of one half is dividing by the word of two, on every extended real. -/
theorem mul_half_eq_div_two (x : EReal) :
    x * Ideal.ofBits .f32 0x3F000000#32 = Ideal.div x (Ideal.ofBits .f32 0x40000000#32) := by
  rw [ofBits_two, ofBits_half, Ideal.div_coe (by norm_num : (2 : ℝ) ≠ 0)]

/-- Subtracting from the zero word is negation. -/
theorem zero_word_sub (y : EReal) : Ideal.ofBits .f32 0x00000000#32 - y = -y := by
  rw [ofBits_zero, sub_eq_add_neg, zero_add]

/-- The maximum with −∞ on the left is the identity. -/
theorem max_negInf_left (y : EReal) : max (Ideal.ofBits .f32 0xFF800000#32) y = y := by
  rw [ofBits_negInf]; exact max_eq_right bot_le

/-- A row's maximum from −∞. -/
def rowMax {n : Nat} (l : Fin n → EReal) : EReal :=
  (Finset.univ : Finset (Fin n)).fold max (Ideal.ofBits .f32 0xFF800000#32) l

/-- The softmax of a row of logits, taken through the row's maximum. -/
def softmaxRow {n : Nat} (l : Fin n → EReal) (j : Fin n) : EReal :=
  Ideal.div (Ideal.exp (l j - rowMax l)) (∑ k : Fin n, Ideal.exp (l k - rowMax l))

/-- The logistic squashing as both programs spell it after negation. -/
def squash (y : EReal) : EReal :=
  Ideal.div (Ideal.ofBits .f32 0x3F800000#32) (Ideal.ofBits .f32 0x3F800000#32 + Ideal.exp (-y))

end Cert.Decoder

end
-- ==== Proof.Decoder.lean ====
/-
  The tile decoder as functions of arrays, coordinate by coordinate.

  `names`: the softmax over the 256 tile names of the temperature-scaled logits — the name scores, read transposed,
  plus the noise — per batch element `b` and tile position `r`.
  `mono`: the soft tile lookup, the product of the name weights with the pattern table: per position, a 256-vector
  of 64 pixels by 4 gray levels.
  `colorized`: per pixel and colour channel, the gray levels weighted by the position's palette entry and summed
  (from the zero word, level by level), then squashed.
-/
import proofs.«108646_j16569983828588_2_alg».proof.Proof.Scalars
import Idealize.ShloMosaic.Lib.ValueIdx

noncomputable section

namespace Cert.Decoder

open Idealize.ShloMosaic Idealize.ShloMosaic.ValueIdx

/-- The temperature-scaled logit of name `k` at position `r` of batch element `b`: the name score (stored names-major)
    plus the noise, times one half. -/
def logit (X0 : (⟨3, ![128, 256, 960]⟩ : Shape).Idx → EReal) (X1 : (⟨3, ![128, 960, 256]⟩ : Shape).Idx → EReal)
    (b : Fin 128) (r : Fin 960) (k : Fin 256) : EReal :=
  (X0 (ix3 b k r) + X1 (ix3 b r k)) * Ideal.ofBits .f32 0x3F000000#32

/-- The name weights: the row softmax of the logits. -/
def names (X0 : (⟨3, ![128, 256, 960]⟩ : Shape).Idx → EReal) (X1 : (⟨3, ![128, 960, 256]⟩ : Shape).Idx → EReal)
    (b : Fin 128) (r : Fin 960) (j : Fin 256) : EReal :=
  softmaxRow (logit X0 X1 b r) j

/-- The soft tile lookup: name weights times the pattern table. -/
def mono (X0 : (⟨3, ![128, 256, 960]⟩ : Shape).Idx → EReal) (X1 : (⟨3, ![128, 960, 256]⟩ : Shape).Idx → EReal)
    (P : (⟨3, ![128, 256, 256]⟩ : Shape).Idx → EReal) (b : Fin 128) (r : Fin 960) (q : Fin 256) : EReal :=
  ∑ k : Fin 256, names X0 X1 b r k * P (ix3 b k q)

/-- The four gray levels of a pixel weighted by the position's palette entry for a channel, summed from the zero word. -/
def blend (M : (⟨4, ![128, 960, 64, 4]⟩ : Shape).Idx → EReal) (C : (⟨4, ![128, 960, 4, 3]⟩ : Shape).Idx → EReal)
    (b : Fin 128) (t : Fin 960) (px : Fin 64) (c : Fin 3) : EReal :=
  Ideal.ofBits .f32 0x00000000#32 + M (ix4 b t px (0 : Fin 4)) * C (ix4 b t (0 : Fin 4) c)
    + M (ix4 b t px (1 : Fin 4)) * C (ix4 b t (1 : Fin 4) c)
    + M (ix4 b t px (2 : Fin 4)) * C (ix4 b t (2 : Fin 4) c)
    + M (ix4 b t px (3 : Fin 4)) * C (ix4 b t (3 : Fin 4) c)

/-- The colourized pixel: the blend, squashed. -/
def colorized (M : (⟨4, ![128, 960, 64, 4]⟩ : Shape).Idx → EReal) (C : (⟨4, ![128, 960, 4, 3]⟩ : Shape).Idx → EReal)
    (b : Fin 128) (t : Fin 960) (px : Fin 64) (c : Fin 3) : EReal :=
  squash (blend M C b t px c)

end Cert.Decoder

end
-- ==== Proof.RefValue.lean ====
/-
  The reference program's intermediate arrays, read at one element, as the decoder's functions.
-/
import proofs.«108646_j16569983828588_2_alg».proof.Proof.Gen.ReferenceIdeal.Read
import proofs.«108646_j16569983828588_2_alg».proof.Proof.Decoder
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Decoder
open Idealize.ShloMosaic Idealize.ShloMosaic.ValueIdx

/-- The scaled logit: the transposed name score plus the noise, divided by the word of two, which is the product with the
    word of one half. -/
theorem logit_apply (A0 : (⟨S128x256x30x32, .f32⟩ : BufTy).Contents (Elt Ideal)) (A4 : (⟨S128x960x256, .f32⟩ : BufTy).Contents (Elt Ideal))
    (b : Fin 128) (r : Fin 960) (k : Fin 256) :
    val_main_v4 (F := Ideal) A0 A4 (ix3 b r k) = logit (val_main_v0 (F := Ideal) A0) A4 b r k := by
  have e1 : idx_main_v1 (ix3 b r k) = ix3 b k r :=
    funext fun a => Fin.ext (by match a with | ⟨0, _⟩ => rfl | ⟨1, _⟩ => rfl | ⟨2, _⟩ => rfl)
  rw [val_main_v4_apply, val_main_v2_apply, val_main_v1_apply, val_main_v3_apply, val_main_cst_apply, e1]
  unfold logit
  rw [Ideal.hostDivf_def, Ideal.addf_def, Ideal.ofBits_def]
  exact (mul_half_eq_div_two _).symm

/-- The reduction over the names with a maximum body is, at a position, the fold of the maximum from −∞ over the
    position's row of logits. -/
theorem rowMax_apply (A0 : (⟨S128x256x30x32, .f32⟩ : BufTy).Contents (Elt Ideal)) (A4 : (⟨S128x960x256, .f32⟩ : BufTy).Contents (Elt Ideal))
    (b : Fin 128) (r : Fin 960) :
    val_main_v5 (F := Ideal) A0 A4 (ix2 b r) = rowMax (logit (val_main_v0 (F := Ideal) A0) A4 b r) := by
  unfold val_main_v5
  have hy : ∀ k : Fin 256, val_main_v4 (F := Ideal) A0 A4 (ix3 b r k) = logit (val_main_v0 (F := Ideal) A0) A4 b r k :=
    fun k => logit_apply A0 A4 b r k
  generalize val_main_v4 (F := Ideal) A0 A4 = y at hy ⊢
  generalize logit (val_main_v0 (F := Ideal) A0) A4 b r = l at hy ⊢
  have hR : S128x960x256.Reduces [2] S128x960 := by decide
  refine (Host.reduce_eq_fold_single (FloatOps.maximumf (F := Ideal) (φ := .f32)) y (val_main_cst_0 (F := Ideal))
    Gen.reducesTo_S128x960x256_S128x960_d2 hR Gen.h_S_ (ix2 b r)).trans ?_
  have hf : (y ∘ hR.lift (ix2 b r)) = l := funext fun k => by
    rw [← hy k]
    exact congrArg y (funext fun c => Fin.ext (by match c with | ⟨0, _⟩ => rfl | ⟨1, _⟩ => rfl | ⟨2, _⟩ => rfl))
  rw [hf, val_main_cst_0_apply, Ideal.ofBits_def]
  rfl

/-- The row maximum broadcast back over the names: the maximum with −∞ in front of it is the identity. -/
theorem max_apply (A0 : (⟨S128x256x30x32, .f32⟩ : BufTy).Contents (Elt Ideal)) (A4 : (⟨S128x960x256, .f32⟩ : BufTy).Contents (Elt Ideal))
    (b : Fin 128) (r : Fin 960) (k : Fin 256) :
    val_main_v9 (F := Ideal) A0 A4 (ix3 b r k) = rowMax (logit (val_main_v0 (F := Ideal) A0) A4 b r) := by
  have e : idx_main_v8 (idx_main_v9 (ix3 b r k)) = ix2 b r :=
    funext fun a => Fin.ext (by match a with | ⟨0, _⟩ => rfl | ⟨1, _⟩ => rfl)
  rw [val_main_v9_apply, val_main_v8_apply, val_main_v7_apply, val_main_v6_apply, val_main_cst_1_apply, e,
    rowMax_apply, Ideal.maximumf_def, Ideal.ofBits_def, max_negInf_left]

/-- The exponential of the logit less the row maximum. -/
theorem exp_apply (A0 : (⟨S128x256x30x32, .f32⟩ : BufTy).Contents (Elt Ideal)) (A4 : (⟨S128x960x256, .f32⟩ : BufTy).Contents (Elt Ideal))
    (b : Fin 128) (r : Fin 960) (k : Fin 256) :
    val_main_v11 (F := Ideal) A0 A4 (ix3 b r k)
      = Ideal.exp (logit (val_main_v0 (F := Ideal) A0) A4 b r k - rowMax (logit (val_main_v0 (F := Ideal) A0) A4 b r)) := by
  rw [val_main_v11_apply, val_main_v10_apply, logit_apply, max_apply, Ideal.hostUnary_exp_def, Ideal.subf_def]

/-- The row's sum of exponentials, from the zero word, broadcast back over the names. -/
theorem sum_apply (A0 : (⟨S128x256x30x32, .f32⟩ : BufTy).Contents (Elt Ideal)) (A4 : (⟨S128x960x256, .f32⟩ : BufTy).Contents (Elt Ideal))
    (b : Fin 128) (r : Fin 960) (j : Fin 256) :
    val_main_v14 (F := Ideal) A0 A4 (ix3 b r j)
      = ∑ k : Fin 256, Ideal.exp (logit (val_main_v0 (F := Ideal) A0) A4 b r k - rowMax (logit (val_main_v0 (F := Ideal) A0) A4 b r)) := by
  rw [val_main_v14_apply, val_main_v13_apply, val_main_v12_apply, val_main_cst_2_apply, Ideal.ofBits_def, ofBits_zero, zero_add]
  refine Finset.sum_congr rfl fun k _ => ?_
  have e : idx_main_v12 (idx_main_v13 (idx_main_v14 (ix3 b r j))) k = ix3 b r k :=
    funext fun a => Fin.ext (by match a with | ⟨0, _⟩ => rfl | ⟨1, _⟩ => rfl | ⟨2, _⟩ => rfl)
  rw [e, exp_apply]

/-- The reference's name weights are the row softmax of the scaled logits over the reshaped name scores. -/
theorem names_apply (A0 : (⟨S128x256x30x32, .f32⟩ : BufTy).Contents (Elt Ideal)) (A4 : (⟨S128x960x256, .f32⟩ : BufTy).Contents (Elt Ideal))
    (b : Fin 128) (r : Fin 960) (j : Fin 256) :
    val_main_v15 (F := Ideal) A0 A4 (ix3 b r j) = names (val_main_v0 (F := Ideal) A0) A4 b r j := by
  rw [val_main_v15_apply, exp_apply, sum_apply, Ideal.hostDivf_def]
  rfl

/-- The reference's soft tile lookup is the product of its name weights with its pattern table. -/
theorem mono_apply (A0 : (⟨S128x256x30x32, .f32⟩ : BufTy).Contents (Elt Ideal)) (A1 : (⟨S128x4x128x128, .f32⟩ : BufTy).Contents (Elt Ideal))
    (A4 : (⟨S128x960x256, .f32⟩ : BufTy).Contents (Elt Ideal)) (b : Fin 128) (r : Fin 960) (q : Fin 256) :
    val_main_v46 (F := Ideal) A0 A1 A4 (ix3 b r q)
      = mono (val_main_v0 (F := Ideal) A0) A4 (val_main_v29 (F := Ideal) A1) b r q := by
  rw [val_main_v46_apply]
  unfold mono
  refine Finset.sum_congr rfl fun k _ => ?_
  have el : lidx_main_v46 (ix3 b r q) k = ix3 b r k :=
    funext fun a => Fin.ext (by match a with | ⟨0, _⟩ => rfl | ⟨1, _⟩ => rfl | ⟨2, _⟩ => rfl)
  have er : ridx_main_v46 (ix3 b r q) k = ix3 b k q :=
    funext fun a => Fin.ext (by match a with | ⟨0, _⟩ => rfl | ⟨1, _⟩ => rfl | ⟨2, _⟩ => rfl)
  rw [el, er, names_apply]

/-- A four-term sum started from an initial value, regrouped from the left. -/
theorem add_sum_four (z a b c d : EReal) : z + (a + b + c + d) = z + a + b + c + d := by
  rw [← add_assoc, ← add_assoc, ← add_assoc]

/-- The lookup, recast with a trailing unit axis and broadcast over the channels, is at pixel `px` and level `k` the
    lookup recast to pixels by levels: both read the lookup at row-major position `4 px + k` of the position's row. -/
theorem lookup_cast_apply (A0 : (⟨S128x256x30x32, .f32⟩ : BufTy).Contents (Elt Ideal)) (A1 : (⟨S128x4x128x128, .f32⟩ : BufTy).Contents (Elt Ideal))
    (A4 : (⟨S128x960x256, .f32⟩ : BufTy).Contents (Elt Ideal))
    (hM : S128x960x256.ShapeCasts (⟨4, ![128, 960, 64, 4]⟩ : Shape))
    (b : Fin 128) (t : Fin 960) (px : Fin 64) (c : Fin 3) (k : Fin 4) :
    val_main_v55 (F := Ideal) A0 A1 A4 (idx_main_v58 (ix4 b t px c) k)
      = shapeCast (⟨4, ![128, 960, 64, 4]⟩ : Shape) (val_main_v46 (F := Ideal) A0 A1 A4) hM (ix4 b t px k) := by
  rw [val_main_v55_apply, val_main_v47_apply]
  generalize val_main_v46 (F := Ideal) A0 A1 A4 = y
  refine (shapeCast_apply y hM (ix4 b t px k) _ ?_).symm
  rewrite [Shape.rowMajor_val_three, Shape.rowMajor_val_four]
  have h0 : b.val < 128 := b.isLt
  have h1 : t.val < 960 := t.isLt
  have h2 : px.val < 64 := px.isLt
  have h3 : k.val < 4 := k.isLt
  show (((((b.val * 960 + t.val) * 64 + px.val) * 4 + k.val) * 1 + 0) / 245760 * 960 + ((((b.val * 960 + t.val) * 64 + px.val) * 4 + k.val) * 1 + 0) / 256 % 960) * 256 + ((((b.val * 960 + t.val) * 64 + px.val) * 4 + k.val) * 1 + 0) % 256
    = ((b.val * 960 + t.val) * 64 + px.val) * 4 + k.val
  omega

/-- The palette entries, recast with a unit pixel axis and broadcast over the pixels, are at level `k` and channel `c` the
    entries recast to positions: both read row-major position `((b 960 + t) 4 + k) 3 + c`. -/
theorem palette_cast_apply (A2 : (⟨S128x8x15x16, .f32⟩ : BufTy).Contents (Elt Ideal)) (A3 : (⟨S128x8x12, .f32⟩ : BufTy).Contents (Elt Ideal))
    (A5 : (⟨S128x240x8, .f32⟩ : BufTy).Contents (Elt Ideal))
    (hC : S128x30x32x4x3.ShapeCasts (⟨4, ![128, 960, 4, 3]⟩ : Shape))
    (b : Fin 128) (t : Fin 960) (px : Fin 64) (c : Fin 3) (k : Fin 4) :
    val_main_v56 (F := Ideal) A2 A3 A5 (idx_main_v58 (ix4 b t px c) k)
      = shapeCast (⟨4, ![128, 960, 4, 3]⟩ : Shape) (val_main_v53 (F := Ideal) A2 A3 A5) hC (ix4 b t k c) := by
  rw [val_main_v56_apply, val_main_v54_apply]
  generalize val_main_v53 (F := Ideal) A2 A3 A5 = y
  refine (shapeCast_apply y hC (ix4 b t k c) _ ?_).symm
  rewrite [Shape.rowMajor_val_five, Shape.rowMajor_val_four]
  have h0 : b.val < 128 := b.isLt
  have h1 : t.val < 960 := t.isLt
  have h3 : k.val < 4 := k.isLt
  have h4 : c.val < 3 := c.isLt
  show (((((((b.val * 960 + t.val) * 1 + 0) * 4 + k.val) * 3 + c.val) / 11520 * 30 + ((((b.val * 960 + t.val) * 1 + 0) * 4 + k.val) * 3 + c.val) / 384 % 30) * 32 + ((((b.val * 960 + t.val) * 1 + 0) * 4 + k.val) * 3 + c.val) / 12 % 32) * 4 + ((((b.val * 960 + t.val) * 1 + 0) * 4 + k.val) * 3 + c.val) / 3 % 4) * 3 + ((((b.val * 960 + t.val) * 1 + 0) * 4 + k.val) * 3 + c.val) % 3
    = ((b.val * 960 + t.val) * 4 + k.val) * 3 + c.val
  omega

/-- The reference's summed product over the gray levels is the blend of the lookup, recast to pixels by levels, with
    the palette entries, recast to positions. -/
theorem blend_apply (A0 : (⟨S128x256x30x32, .f32⟩ : BufTy).Contents (Elt Ideal)) (A1 : (⟨S128x4x128x128, .f32⟩ : BufTy).Contents (Elt Ideal))
    (A2 : (⟨S128x8x15x16, .f32⟩ : BufTy).Contents (Elt Ideal)) (A3 : (⟨S128x8x12, .f32⟩ : BufTy).Contents (Elt Ideal))
    (A4 : (⟨S128x960x256, .f32⟩ : BufTy).Contents (Elt Ideal)) (A5 : (⟨S128x240x8, .f32⟩ : BufTy).Contents (Elt Ideal))
    (hM : S128x960x256.ShapeCasts (⟨4, ![128, 960, 64, 4]⟩ : Shape)) (hC : S128x30x32x4x3.ShapeCasts (⟨4, ![128, 960, 4, 3]⟩ : Shape))
    (b : Fin 128) (t : Fin 960) (px : Fin 64) (c : Fin 3) :
    val_main_v58 (F := Ideal) A0 A1 A2 A3 A4 A5 (ix4 b t px c)
      = blend (shapeCast (⟨4, ![128, 960, 64, 4]⟩ : Shape) (val_main_v46 (F := Ideal) A0 A1 A4) hM)
          (shapeCast (⟨4, ![128, 960, 4, 3]⟩ : Shape) (val_main_v53 (F := Ideal) A2 A3 A5) hC) b t px c := by
  have hterm : ∀ k : Fin 4, val_main_v57 (F := Ideal) A0 A1 A2 A3 A4 A5 (idx_main_v58 (ix4 b t px c) k)
      = shapeCast (⟨4, ![128, 960, 64, 4]⟩ : Shape) (val_main_v46 (F := Ideal) A0 A1 A4) hM (ix4 b t px k)
        * shapeCast (⟨4, ![128, 960, 4, 3]⟩ : Shape) (val_main_v53 (F := Ideal) A2 A3 A5) hC (ix4 b t k c) := fun k => by
    rw [val_main_v57_apply, lookup_cast_apply A0 A1 A4 hM, palette_cast_apply A2 A3 A5 hC, Ideal.mulf_def]
  rw [val_main_v58_apply, val_main_cst_10_apply, Ideal.ofBits_def, Fin.sum_univ_four, hterm 0, hterm 1, hterm 2, hterm 3]
  unfold blend
  exact add_sum_four _ _ _ _ _

end Cert.ReferenceIdeal.RefValue

end
-- ==== Proof.KernelRun.lean ====
/-
  The idealized kernel program's whole run, with every unscoped buffer read back.

  The program is five stretches: host operations, the softmax-and-product region, host operations, the combine
  region, host operations. Each stretch takes the TensorCore's buffers from one boundary's contents to the next
  (`W0` … `W5` of the frame module: a stretch of host operations folds its operations over the contents; a region
  leaves its windows' arrays at what the write-backs fold to and every other buffer as it found it). The frame
  module states this run for the argument arrays only; here the same launch is read at EVERY unscoped buffer, so
  that each result buffer is known to end at the last boundary's contents `W5`.
-/
import proofs.«108646_j16569983828588_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Whole

end
-- ==== Proof.Stored.lean ====
/-
  The two kernel bodies' stored values, read at one element.

  The first body stores, per batch element, the name weights — the row softmax of the scaled logits, the name scores
  read transposed — and their product with the pattern table; the second stores the squashed blend of a pixel's four
  gray levels with the position's palette entry.
-/
import proofs.«108646_j16569983828588_2_alg».proof.Proof.Gen.KernelIdeal.Skeleton
import proofs.«108646_j16569983828588_2_alg».proof.Proof.Decoder
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stored

open Cert.KernelIdeal Cert.KernelIdeal.Gen Cert.Decoder
open Idealize.ShloMosaic Idealize.ShloMosaic.ValueIdx

/-! ## The first body: a row softmax and a product with a table -/

/-- A vector of `a` entries, cast to a column and broadcast along `b` lanes, reads at `(r, j)` its entry `r`. -/
private theorem column_apply {α : Type} {a b : Nat} (z : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ z hc) hb (ix2 r j) = z (ix1 r) := by
  refine (broadcastTo_apply _ hb (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply z hc _ _ (by
      rw [Shape.rowMajor_val_one, Shape.rowMajor_val_two]
      show r.val = r.val * 1 + 0
      omega)

/-- Row `r` of a matrix with column `k` put back is the entry `(r, k)`. -/
private theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The lane maximum from −∞ of a matrix, at row `r`, is the row's maximum. -/
private theorem laneMax_apply (v : FVec Ideal S960x256 .f32) (hφ : FKind.Formats .f32)
    (hacc : (0xFF800000#32 : BitVec 32) = FKind.maximumf.neutral .f32 hφ) (r : Fin 960) :
    multiReduction .maximumf [1] S960 v 0xFF800000#32 reduces_S960x256_S960 hφ hacc (ix1 r)
      = rowMax (fun k : Fin 256 => v (ix2 r k)) := by
  refine (Ideal.multiReduction_maximumf_single v 0xFF800000#32 reduces_S960x256_S960 hφ hacc (ix1 r)).trans ?_
  have hf : (v ∘ reduces_S960x256_S960.lift (ix1 r)) = fun k : Fin 256 => v (ix2 r k) :=
    funext fun k => congrArg v (lift_row reduces_S960x256_S960 r k)
  unfold rowMax
  exact congrArg (fun f => Finset.fold max (Ideal.ofBits .f32 0xFF800000#32) f (Finset.univ : Finset (Fin 256))) hf

/-- The lane sum of a matrix, at row `r`, is the row's sum. -/
private theorem laneSum_apply (v : FVec Ideal S960x256 .f32) (hφ : FKind.Formats .f32)
    (hacc : (0x00000000#32 : BitVec 32) = FKind.add.neutral .f32 hφ) (r : Fin 960) :
    multiReduction .add [1] S960 v 0x00000000#32 reduces_S960x256_S960 hφ hacc (ix1 r)
      = ∑ k : Fin 256, v (ix2 r k) := by
  refine (Ideal.multiReduction_add_single v 0x00000000#32 reduces_S960x256_S960 hφ hacc (ix1 r)).trans ?_
  exact Finset.sum_congr rfl fun k _ => congrArg v (lift_row reduces_S960x256_S960 r k)

/-- The block's scaled logits as a matrix, as the body computes them: name scores transposed, plus noise, times the word
    of one half. -/
private def logits (x0 : Vec Ideal S1x256x960 .f32) (x1 : Vec Ideal S1x960x256 .f32) : FVec Ideal S960x256 .f32 :=
  mulf (addf (transpose S960x256 [1, 0] (shapeCast S256x960 x0 shapeCasts_S1x256x960_S256x960) transposes_S256x960_p1_0_S960x256)
      (shapeCast S960x256 x1 shapeCasts_S1x960x256_S960x256))
    (broadcast S960x256 (Scalar.ofBits .f32 0x3F000000#32))

/-- The scaled logit at row `r` and name `k`. -/
private theorem logits_apply (x0 : Vec Ideal S1x256x960 .f32) (x1 : Vec Ideal S1x960x256 .f32) (r : Fin 960) (k : Fin 256) :
    logits x0 x1 (ix2 r k) = (x0 (ix3 (0 : Fin 1) k r) + x1 (ix3 (0 : Fin 1) r k)) * Ideal.ofBits .f32 0x3F000000#32 := by
  show (transpose S960x256 [1, 0] (shapeCast S256x960 x0 shapeCasts_S1x256x960_S256x960) transposes_S256x960_p1_0_S960x256 (ix2 r k)
      + shapeCast S960x256 x1 shapeCasts_S1x960x256_S960x256 (ix2 r k)) * Ideal.ofBits .f32 0x3F000000#32 = _
  rw [transpose_ix2_apply, shapeCast_1ab_ab_apply, shapeCast_1ab_ab_apply]

/-- A matrix less its lane maximum (from −∞, cast to a column and broadcast back along the lanes), exponentiated. -/
private def shiftedExp (v : FVec Ideal S960x256 .f32) : FVec Ideal S960x256 .f32 :=
  exp (subf v (broadcastTo S960x256 (shapeCast S960x1
    (multiReduction .maximumf [1] S960 v 0xFF800000#32 reduces_S960x256_S960 (.inl rfl) rfl) shapeCasts_S960_S960x1)
    broadcasts_S960x1_S960x256))

/-- The row softmax of a matrix as the body computes it: the shifted exponentials over their lane sum (cast to a column
    and broadcast back along the lanes). -/
private def softmaxLanes (v : FVec Ideal S960x256 .f32) : FVec Ideal S960x256 .f32 :=
  divf (shiftedExp v)
    (broadcastTo S960x256 (shapeCast S960x1
      (multiReduction .add [1] S960 (shiftedExp v) 0x00000000#32 reduces_S960x256_S960 (.inl rfl) rfl) shapeCasts_S960_S960x1)
      broadcasts_S960x1_S960x256)

/-- The shifted exponential at an entry: the entry less its row's maximum, exponentiated. -/
private theorem shiftedExp_apply (v : FVec Ideal S960x256 .f32) (r : Fin 960) (k : Fin 256) :
    shiftedExp v (ix2 r k) = Ideal.exp (v (ix2 r k) - rowMax (fun k' : Fin 256 => v (ix2 r k'))) := by
  show Ideal.exp (v (ix2 r k) - broadcastTo S960x256 (shapeCast S960x1
      (multiReduction .maximumf [1] S960 v 0xFF800000#32 reduces_S960x256_S960 (.inl rfl) rfl) shapeCasts_S960_S960x1)
      broadcasts_S960x1_S960x256 (ix2 r k)) = _
  exact congrArg (fun m => Ideal.exp (v (ix2 r k) - m))
    ((column_apply _ shapeCasts_S960_S960x1 broadcasts_S960x1_S960x256 r k).trans (laneMax_apply v (.inl rfl) rfl r))

/-- The body's row softmax at row `r` and lane `j` is the softmax of row `r`. -/
private theorem softmaxLanes_apply (v : FVec Ideal S960x256 .f32) (r : Fin 960) (j : Fin 256) :
    softmaxLanes v (ix2 r j) = softmaxRow (fun k : Fin 256 => v (ix2 r k)) j := by
  show Ideal.div (shiftedExp v (ix2 r j)) (broadcastTo S960x256 (shapeCast S960x1
      (multiReduction .add [1] S960 (shiftedExp v) 0x00000000#32 reduces_S960x256_S960 (.inl rfl) rfl) shapeCasts_S960_S960x1)
      broadcasts_S960x1_S960x256 (ix2 r j)) = _
  refine (congrArg₂ Ideal.div (shiftedExp_apply v r j)
    ((column_apply _ shapeCasts_S960_S960x1 broadcasts_S960x1_S960x256 r j).trans
      (laneSum_apply (shiftedExp v) (.inl rfl) rfl r))).trans ?_
  unfold softmaxRow
  exact congrArg (Ideal.div _) (Finset.sum_congr rfl fun k _ => shiftedExp_apply v r k)

/-- The first body's name weights, before the leading unit axis is put back: the row softmax of the scaled logits. -/
theorem pay1_apply (x0 : Vec Ideal S1x256x960 .f32) (x1 : Vec Ideal S1x960x256 .f32) (r : Fin 960) (j : Fin 256) :
    k0_pay1 (F := Ideal) x0 x1 (ix2 r j)
      = softmaxRow (fun k : Fin 256 => (x0 (ix3 (0 : Fin 1) k r) + x1 (ix3 (0 : Fin 1) r k)) * Ideal.ofBits .f32 0x3F000000#32) j := by
  have e : k0_pay1 (F := Ideal) x0 x1 = softmaxLanes (logits x0 x1) := rfl
  rw [e, softmaxLanes_apply]
  exact congrArg (fun l => softmaxRow l j) (funext fun k => logits_apply x0 x1 r k)

/-- The name weights the first body stores, at row `r` and name `j` of its block. -/
theorem names_apply (x0 : Vec Ideal S1x256x960 .f32) (x1 : Vec Ideal S1x960x256 .f32) (r : Fin 960) (j : Fin 256) :
    k0_pay2 (F := Ideal) x0 x1 (ix3 (0 : Fin 1) r j)
      = softmaxRow (fun k : Fin 256 => (x0 (ix3 (0 : Fin 1) k r) + x1 (ix3 (0 : Fin 1) r k)) * Ideal.ofBits .f32 0x3F000000#32) j := by
  unfold k0_pay2
  exact (shapeCast_ab_1ab_apply _ shapeCasts_S960x256_S1x960x256 (0 : Fin 1) r j).trans (pay1_apply x0 x1 r j)

/-- Under the product's record the weights' index at output `j` keeps the output's row … -/
private theorem lhsIdx_row (j : S960x256.Idx) (c : dot_S960x256_S256x256_S960x256_1_0_0_1_n_n.contr.Idx) :
    (dot_S960x256_S256x256_S960x256_1_0_0_1_n_n.lhsIdx j c 0).val = (j 0).val := by
  unfold DotDims.lhsIdx
  rw [dif_neg (show ¬(0 : Fin S960x256.rank) ∈ dot_S960x256_S256x256_S960x256_1_0_0_1_n_n.lhsBatch by decide),
    dif_pos (show (0 : Fin S960x256.rank) ∈ dot_S960x256_S256x256_S960x256_1_0_0_1_n_n.lhsNonContracting by decide)]
  rfl
/-- … and takes the contraction coordinate as its lane; -/
private theorem lhsIdx_lane (j : S960x256.Idx) (c : dot_S960x256_S256x256_S960x256_1_0_0_1_n_n.contr.Idx) :
    (dot_S960x256_S256x256_S960x256_1_0_0_1_n_n.lhsIdx j c 1).val = (c ⟨0, by decide⟩).val :=
  dot_S960x256_S256x256_S960x256_1_0_0_1_n_n.lhsIdx_val_of_single rfl j c
/-- the table's index takes the contraction coordinate as its row … -/
private theorem rhsIdx_row (j : S960x256.Idx) (c : dot_S960x256_S256x256_S960x256_1_0_0_1_n_n.contr.Idx) :
    (dot_S960x256_S256x256_S960x256_1_0_0_1_n_n.rhsIdx j c 0).val = (c ⟨0, by decide⟩).val :=
  dot_S960x256_S256x256_S960x256_1_0_0_1_n_n.rhsIdx_val_of_single rfl j c
/-- … and keeps the output's column. -/
private theorem rhsIdx_col (j : S960x256.Idx) (c : dot_S960x256_S256x256_S960x256_1_0_0_1_n_n.contr.Idx) :
    (dot_S960x256_S256x256_S960x256_1_0_0_1_n_n.rhsIdx j c 1).val = (j 1).val := by
  unfold DotDims.rhsIdx
  rw [dif_neg (show ¬(1 : Fin S256x256.rank) ∈ dot_S960x256_S256x256_S960x256_1_0_0_1_n_n.rhsBatch by decide),
    dif_pos (show (1 : Fin S256x256.rank) ∈ dot_S960x256_S256x256_S960x256_1_0_0_1_n_n.rhsNonContracting by decide)]
  rfl

/-- A product of a 960 × 256 matrix with a 256 × 256 table into the zero accumulator, at `(r, q)`: the sum over the 256
    contraction coordinates of row `r` times column `q`. -/
private theorem product_apply (A : FVec Ideal S960x256 .bf16) (B : FVec Ideal S256x256 .bf16) (r : Fin 960) (q : Fin 256) :
    matmul dot_S960x256_S256x256_S960x256_1_0_0_1_n_n none A B (constant S960x256 .f32 0x00000000#32) (ix2 r q)
      = ∑ k : Fin 256, A (ix2 r k) * B (ix2 k q) := by
  show FloatOps.matmul dot_S960x256_S256x256_S960x256_1_0_0_1_n_n none A B (constant S960x256 .f32 0x00000000#32) (ix2 r q) = _
  rw [Ideal.matmul_constant_zero_apply,
    ← Equiv.sum_comp (contrEquiv1 dot_S960x256_S256x256_S960x256_1_0_0_1_n_n 256 rfl rfl).symm]
  refine Finset.sum_congr rfl fun k _ => ?_
  have hk := contrEquiv1_symm_val dot_S960x256_S256x256_S960x256_1_0_0_1_n_n 256 rfl rfl k
  have el : dot_S960x256_S256x256_S960x256_1_0_0_1_n_n.lhsIdx (ix2 r q) ((contrEquiv1 dot_S960x256_S256x256_S960x256_1_0_0_1_n_n 256 rfl rfl).symm k) = ix2 r k :=
    funext fun a => Fin.ext (by
      match a with
      | ⟨0, _⟩ => exact lhsIdx_row _ _
      | ⟨1, _⟩ => exact (lhsIdx_lane _ _).trans hk)
  have er : dot_S960x256_S256x256_S960x256_1_0_0_1_n_n.rhsIdx (ix2 r q) ((contrEquiv1 dot_S960x256_S256x256_S960x256_1_0_0_1_n_n 256 rfl rfl).symm k) = ix2 k q :=
    funext fun a => Fin.ext (by
      match a with
      | ⟨0, _⟩ => exact (rhsIdx_row _ _).trans hk
      | ⟨1, _⟩ => exact rhsIdx_col _ _)
  rw [el, er]

/-- The soft tile lookup the first body stores, at row `r` and column `q` of its block. -/
theorem mono_apply (x0 : Vec Ideal S1x256x960 .f32) (x1 : Vec Ideal S1x960x256 .f32) (x2 : Vec Ideal S1x256x256 .f32)
    (r : Fin 960) (q : Fin 256) :
    k0_pay3 (F := Ideal) x0 x1 x2 (ix3 (0 : Fin 1) r q)
      = ∑ k : Fin 256, softmaxRow (fun k' : Fin 256 => (x0 (ix3 (0 : Fin 1) k' r) + x1 (ix3 (0 : Fin 1) r k')) * Ideal.ofBits .f32 0x3F000000#32) k
          * x2 (ix3 (0 : Fin 1) k q) := by
  unfold k0_pay3
  refine (shapeCast_ab_1ab_apply _ shapeCasts_S960x256_S1x960x256 (0 : Fin 1) r q).trans ?_
  refine (product_apply _ _ r q).trans ?_
  refine Finset.sum_congr rfl fun k _ => ?_
  show k0_pay1 (F := Ideal) x0 x1 (ix2 r k) * shapeCast S256x256 x2 shapeCasts_S1x256x256_S256x256 (ix2 k q) = _
  rw [pay1_apply, shapeCast_1ab_ab_apply]

/-! ## The second body: four gray levels blended with a palette entry, squashed -/

/-- Gray level `o` of every pixel of the block, cut out of the last axis and broadcast along the three channels. -/
private def level (o : Nat) (y0 : Vec Ideal S1x64x64x4 .f32) (hs : S64x64x4.Slices ![0, 0, o] S64x64x1) : FVec Ideal S64x64x3 .f32 :=
  broadcastTo S64x64x3 (extractStridedSlice S64x64x1 ![0, 0, o] (shapeCast S64x64x4 y0 shapeCasts_S1x64x64x4_S64x64x4) hs)
    broadcasts_S64x64x1_S64x64x3

/-- The palette row for gray level `o` of every position of the block, cut out of the middle axis and broadcast along the
    64 pixels. -/
private def palette (o : Nat) (y1 : Vec Ideal S1x64x4x3 .f32) (hs : S64x4x3.Slices ![0, o, 0] S64x1x3) : FVec Ideal S64x64x3 .f32 :=
  broadcastTo S64x64x3 (extractStridedSlice S64x1x3 ![0, o, 0] (shapeCast S64x4x3 y1 shapeCasts_S1x64x4x3_S64x4x3) hs)
    broadcasts_S64x1x3_S64x64x3

/-- At position `tt`, pixel `px` and any channel it is the pixel's gray level `o`. -/
private theorem level_apply (o : Nat) (g : Fin 4) (hg : g.val = o) (y0 : Vec Ideal S1x64x64x4 .f32)
    (hs : S64x64x4.Slices ![0, 0, o] S64x64x1) (tt px : Fin 64) (c : Fin 3) :
    level o y0 hs (ix3 tt px c) = y0 (ix4 (0 : Fin 1) tt px g) := by
  unfold level
  refine (broadcastTo_apply _ broadcasts_S64x64x1_S64x64x3 (ix3 tt px c) (ix3 tt px (0 : Fin 1)) fun ax => ?_).trans ?_
  · match ax with
    | ⟨0, _⟩ => rfl
    | ⟨1, _⟩ => rfl
    | ⟨2, _⟩ => rfl
  refine (extractStridedSlice_apply _ _ hs (ix3 tt px (0 : Fin 1)) (ix3 tt px g) fun ax => ?_).trans ?_
  · match ax with
    | ⟨0, _⟩ => exact (Nat.zero_add _).symm
    | ⟨1, _⟩ => exact (Nat.zero_add _).symm
    | ⟨2, _⟩ => exact hg
  exact shapeCast_1abc_abc_apply y0 shapeCasts_S1x64x64x4_S64x64x4 tt px g

/-- At position `tt`, any pixel and channel `c` it is the position's palette entry for gray level `o` and channel `c`. -/
private theorem palette_apply (o : Nat) (g : Fin 4) (hg : g.val = o) (y1 : Vec Ideal S1x64x4x3 .f32)
    (hs : S64x4x3.Slices ![0, o, 0] S64x1x3) (tt px : Fin 64) (c : Fin 3) :
    palette o y1 hs (ix3 tt px c) = y1 (ix4 (0 : Fin 1) tt g c) := by
  unfold palette
  refine (broadcastTo_apply _ broadcasts_S64x1x3_S64x64x3 (ix3 tt px c) (ix3 tt (0 : Fin 1) c) fun ax => ?_).trans ?_
  · match ax with
    | ⟨0, _⟩ => rfl
    | ⟨1, _⟩ => rfl
    | ⟨2, _⟩ => rfl
  refine (extractStridedSlice_apply _ _ hs (ix3 tt (0 : Fin 1) c) (ix3 tt g c) fun ax => ?_).trans ?_
  · match ax with
    | ⟨0, _⟩ => exact (Nat.zero_add _).symm
    | ⟨1, _⟩ => exact hg
    | ⟨2, _⟩ => exact (Nat.zero_add _).symm
  exact shapeCast_1abc_abc_apply y1 shapeCasts_S1x64x4x3_S64x4x3 tt g c

/-- The blend as the body accumulates it: from the zero word, level by level. -/
private def blendLanes (y0 : Vec Ideal S1x64x64x4 .f32) (y1 : Vec Ideal S1x64x4x3 .f32) : FVec Ideal S64x64x3 .f32 :=
  addf (addf (addf (addf (broadcast S64x64x3 (Scalar.ofBits .f32 0x00000000#32))
    (mulf (level 0 y0 slices_S64x64x4_o0_0_0_S64x64x1) (palette 0 y1 slices_S64x4x3_o0_0_0_S64x1x3)))
    (mulf (level 1 y0 slices_S64x64x4_o0_0_1_S64x64x1) (palette 1 y1 slices_S64x4x3_o0_1_0_S64x1x3)))
    (mulf (level 2 y0 slices_S64x64x4_o0_0_2_S64x64x1) (palette 2 y1 slices_S64x4x3_o0_2_0_S64x1x3)))
    (mulf (level 3 y0 slices_S64x64x4_o0_0_3_S64x64x1) (palette 3 y1 slices_S64x4x3_o0_3_0_S64x1x3))

/-- The accumulated blend at position `tt`, pixel `px` and channel `c`. -/
private theorem blendLanes_apply (y0 : Vec Ideal S1x64x64x4 .f32) (y1 : Vec Ideal S1x64x4x3 .f32) (tt px : Fin 64) (c : Fin 3) :
    blendLanes y0 y1 (ix3 tt px c)
      = Ideal.ofBits .f32 0x00000000#32
          + y0 (ix4 (0 : Fin 1) tt px (0 : Fin 4)) * y1 (ix4 (0 : Fin 1) tt (0 : Fin 4) c)
          + y0 (ix4 (0 : Fin 1) tt px (1 : Fin 4)) * y1 (ix4 (0 : Fin 1) tt (1 : Fin 4) c)
          + y0 (ix4 (0 : Fin 1) tt px (2 : Fin 4)) * y1 (ix4 (0 : Fin 1) tt (2 : Fin 4) c)
          + y0 (ix4 (0 : Fin 1) tt px (3 : Fin 4)) * y1 (ix4 (0 : Fin 1) tt (3 : Fin 4) c) := by
  show Ideal.ofBits .f32 0x00000000#32
      + (level 0 y0 slices_S64x64x4_o0_0_0_S64x64x1) (ix3 tt px c) * (palette 0 y1 slices_S64x4x3_o0_0_0_S64x1x3) (ix3 tt px c)
      + (level 1 y0 slices_S64x64x4_o0_0_1_S64x64x1) (ix3 tt px c) * (palette 1 y1 slices_S64x4x3_o0_1_0_S64x1x3) (ix3 tt px c)
      + (level 2 y0 slices_S64x64x4_o0_0_2_S64x64x1) (ix3 tt px c) * (palette 2 y1 slices_S64x4x3_o0_2_0_S64x1x3) (ix3 tt px c)
      + (level 3 y0 slices_S64x64x4_o0_0_3_S64x64x1) (ix3 tt px c) * (palette 3 y1 slices_S64x4x3_o0_3_0_S64x1x3) (ix3 tt px c) = _
  rw [level_apply 0 (0 : Fin 4) rfl, level_apply 1 (1 : Fin 4) rfl, level_apply 2 (2 : Fin 4) rfl, level_apply 3 (3 : Fin 4) rfl,
    palette_apply 0 (0 : Fin 4) rfl, palette_apply 1 (1 : Fin 4) rfl, palette_apply 2 (2 : Fin 4) rfl, palette_apply 3 (3 : Fin 4) rfl]

/-- The colourized pixel the second body stores, at position `tt`, pixel `px` and channel `c` of its block. -/
theorem colorized_apply (y0 : Vec Ideal S1x64x64x4 .f32) (y1 : Vec Ideal S1x64x4x3 .f32) (tt : Fin 64) (px : Fin 64) (c : Fin 3) :
    k1_pay1 (F := Ideal) y0 y1 (ix4 (0 : Fin 1) tt px c)
      = squash (Ideal.ofBits .f32 0x00000000#32
          + y0 (ix4 (0 : Fin 1) tt px (0 : Fin 4)) * y1 (ix4 (0 : Fin 1) tt (0 : Fin 4) c)
          + y0 (ix4 (0 : Fin 1) tt px (1 : Fin 4)) * y1 (ix4 (0 : Fin 1) tt (1 : Fin 4) c)
          + y0 (ix4 (0 : Fin 1) tt px (2 : Fin 4)) * y1 (ix4 (0 : Fin 1) tt (2 : Fin 4) c)
          + y0 (ix4 (0 : Fin 1) tt px (3 : Fin 4)) * y1 (ix4 (0 : Fin 1) tt (3 : Fin 4) c)) := by
  have e : k1_pay1 (F := Ideal) y0 y1 = shapeCast S1x64x64x3
      (divf (broadcast S64x64x3 (Scalar.ofBits .f32 0x3F800000#32))
        (addf (broadcast S64x64x3 (Scalar.ofBits .f32 0x3F800000#32))
          (exp (subf (broadcast S64x64x3 (Scalar.ofBits .f32 0x00000000#32)) (blendLanes y0 y1)))))
      shapeCasts_S64x64x3_S1x64x64x3 := rfl
  rw [e]
  refine (shapeCast_abc_1abc_apply _ shapeCasts_S64x64x3_S1x64x64x3 (0 : Fin 1) tt px c).trans ?_
  show Ideal.div (Ideal.ofBits .f32 0x3F800000#32)
      (Ideal.ofBits .f32 0x3F800000#32 + Ideal.exp (Ideal.ofBits .f32 0x00000000#32 - blendLanes y0 y1 (ix3 tt px c))) = _
  rw [zero_word_sub, blendLanes_apply]
  rfl

end Cert.KernelIdeal.Stored

end
-- ==== Proof.NamesRegion.lean ====
/-
  The first region: the name weights and the soft tile lookup as whole arrays.

  The grid has one point per batch element; at point `t` every window's block is slab `t` of its array (block index
  `(t, 0, 0)`). The body's two stores, read at one element, are the decoder's `names` and `mono` of the blocks; a
  block element `(0, r, j)` of slab `t` is the array element `(t, r, j)`, so each point writes back slab `t` of
  one whole-array function, and the slabs cover the arrays.
-/
import proofs.«108646_j16569983828588_2_alg».proof.Proof.Gen.KernelIdeal.Frame
import proofs.«108646_j16569983828588_2_alg».proof.Proof.Stored
import Idealize.ShloMosaic.Lib.Pipeline.Value

set_option maxRecDepth 16384

noncomputable section

namespace Cert.KernelIdeal.NamesRegion

open Cert.KernelIdeal Cert.KernelIdeal.Gen Cert.Decoder
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The name weights as an array over (batch, position, name). -/
def namesArr (X0 : S128x256x960.Idx → EReal) (X1 : S128x960x256.Idx → EReal) : S128x960x256.Idx → EReal :=
  fun i => names X0 X1 ⟨(i 0).val, (i 0).isLt⟩ ⟨(i 1).val, (i 1).isLt⟩ ⟨(i 2).val, (i 2).isLt⟩

/-- The soft tile lookup as an array over (batch, position, pixel-and-level). -/
def monoArr (X0 : S128x256x960.Idx → EReal) (X1 : S128x960x256.Idx → EReal) (P : S128x256x256.Idx → EReal) :
    S128x960x256.Idx → EReal :=
  fun i => mono X0 X1 P ⟨(i 0).val, (i 0).isLt⟩ ⟨(i 1).val, (i 1).isLt⟩ ⟨(i 2).val, (i 2).isLt⟩

theorem zero3 : (![0, 0, 0] : Fin 3 → Nat) = fun _ => 0 := funext fun a => by fin_cases a <;> rfl

/-- A grid point is a batch element. -/
theorem point_lt (t : Fin cfg0.N) : t.val < 128 := lt_of_lt_of_eq t.isLt N_0

/-- At point `t` every window's block index is `(t, 0, 0)`: decided over the 128 points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The name scores' block at point `t`, at name `k` and position `r`, is the array at `(t, k, r)`. -/
theorem read_scores (c : Dev nD) (t : Fin cfg0.N) (k : Fin 256) (r : Fin 960) :
    iblk0 V c 0 t (ix3 (0 : Fin 1) k r) = V c main_v14 (ix3 (⟨t.val, point_lt t⟩ : Fin 128) k r) := by
  obtain ⟨⟨e0, e1, e2⟩, -⟩ := block_index t
  show V c main_v14 (((cfg0.win 0).blk t).view.emb (ix3 (0 : Fin 1) k r)) = _
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * k.val = k.val; omega
  | ⟨2, _⟩ => show win0_0.index t (2 : Fin 3) * 960 + 1 * r.val = r.val; omega

/-- The noise block at point `t`, at position `r` and name `k`, is the array at `(t, r, k)`. -/
theorem read_noise (c : Dev nD) (t : Fin cfg0.N) (r : Fin 960) (k : Fin 256) :
    iblk0 V c 1 t (ix3 (0 : Fin 1) r k) = V c main_arg4 (ix3 (⟨t.val, point_lt t⟩ : Fin 128) r k) := by
  obtain ⟨-, ⟨e0, e1, e2⟩, -⟩ := block_index t
  show V c main_arg4 (((cfg0.win 1).blk t).view.emb (ix3 (0 : Fin 1) r k)) = _
  refine congrArg _ (funext fun a => Fin.ext ?_)
  match a with
  | ⟨0, _⟩ => show win0_1.index t (0 : Fin 3) * 1 + 1 * 0 = t.val; omega
  | ⟨1, _⟩ => show win0_1.index t (1 : Fin 3) * 960 + 1 * r.val = r.val; omega
  | ⟨2, _⟩ => show win0_1.index t (2 : Fin 3) * 256 + 1 * k.val = k.val; omega

/-- The pattern table's block at point `t`, at `(k, q)`, is the array at `(t, k, q)`. -/
theorem read_table (c : Dev nD) (t : Fin cfg0.N) (k : Fin 256) (q : Fin 256) :
    iblk0 V c 2 t (ix3 (0 : Fin 1) k q) = V c main_v13 (ix3 (⟨t.val, point_lt t⟩ : Fin 128) k q) := by
  obtain ⟨-, -, ⟨e0, e1, e2⟩, -⟩ := block_index t
  show V c main_v13 (((cfg0.win 2).blk t).view.emb (ix3 (0 : Fin 1) k q)) = _
  refine congrArg _ (funext fun a => Fin.ext ?_)
  match a with
  | ⟨0, _⟩ => show win0_2.index t (0 : Fin 3) * 1 + 1 * 0 = t.val; omega
  | ⟨1, _⟩ => show win0_2.index t (1 : Fin 3) * 256 + 1 * k.val = k.val; omega
  | ⟨2, _⟩ => show win0_2.index t (2 : Fin 3) * 256 + 1 * q.val = q.val; omega

/-- Point `t` writes back slab `t` of the name weights of the arrays as the region finds them. -/
theorem flushed_names (c : Dev nD) (t : Fin cfg0.N) :
    (dat0 V c).flushed 3 t = ((cfg0.win 3).blk t).view.read (Elt Ideal) (namesArr (V c main_v14) (V c main_arg4)) := by
  show (cfg0.win 3).cut (grid0.coords t) ((dat0 V c).after 3 t) = _
  rw [after0_3]
  unfold out0_3
  rw [View.canon_unit_zero zero3]
  simp only [View.ld_unit_zero (S := S1x256x960) zero3, View.ld_unit_zero (S := S1x960x256) zero3]
  obtain ⟨-, -, -, ⟨e0, e1, e2⟩, -⟩ := block_index t
  funext y
  obtain ⟨z, r, j, rfl⟩ : ∃ (z : Fin 1) (r : Fin 960) (j : Fin 256), y = ix3 z r j := ⟨y 0, y 1, y 2, eq_ix3 y⟩
  obtain rfl : z = 0 := Subsingleton.elim _ _
  have hemb : ((cfg0.win 3).blk t).view.emb (ix3 (0 : Fin 1) r j) = ix3 (⟨t.val, point_lt t⟩ : Fin 128) r j := by
    funext a; apply Fin.ext
    match a with
    | ⟨0, _⟩ => show win0_3.index t (0 : Fin 3) * 1 + 1 * 0 = t.val; omega
    | ⟨1, _⟩ => show win0_3.index t (1 : Fin 3) * 960 + 1 * r.val = r.val; omega
    | ⟨2, _⟩ => show win0_3.index t (2 : Fin 3) * 256 + 1 * j.val = j.val; omega
  show k0_pay2 (F := Ideal) (iblk0 V c 0 t) (iblk0 V c 1 t) (ix3 (0 : Fin 1) r j)
    = namesArr (V c main_v14) (V c main_arg4) (((cfg0.win 3).blk t).view.emb (ix3 (0 : Fin 1) r j))
  rw [hemb]
  refine (Stored.names_apply (iblk0 V c 0 t) (iblk0 V c 1 t) r j).trans ?_
  show _ = softmaxRow (logit (V c main_v14) (V c main_arg4) (⟨t.val, point_lt t⟩ : Fin 128) r) j
  refine congrArg (fun l => softmaxRow l j) (funext fun k => ?_)
  exact congrArg₂ (fun a b : EReal => (a + b) * Ideal.ofBits .f32 0x3F000000#32) (read_scores V c t k r) (read_noise V c t r k)

/-- Point `t` writes back slab `t` of the soft tile lookup of the arrays as the region finds them. -/
theorem flushed_mono (c : Dev nD) (t : Fin cfg0.N) :
    (dat0 V c).flushed 4 t
      = ((cfg0.win 4).blk t).view.read (Elt Ideal) (monoArr (V c main_v14) (V c main_arg4) (V c main_v13)) := by
  show (cfg0.win 4).cut (grid0.coords t) ((dat0 V c).after 4 t) = _
  rw [after0_4]
  unfold out0_4
  rw [View.canon_unit_zero zero3]
  simp only [View.ld_unit_zero (S := S1x256x960) zero3, View.ld_unit_zero (S := S1x960x256) zero3,
    View.ld_unit_zero (S := S1x256x256) zero3]
  obtain ⟨-, -, -, -, ⟨e0, e1, e2⟩⟩ := block_index t
  funext y
  obtain ⟨z, r, q, rfl⟩ : ∃ (z : Fin 1) (r : Fin 960) (q : Fin 256), y = ix3 z r q := ⟨y 0, y 1, y 2, eq_ix3 y⟩
  obtain rfl : z = 0 := Subsingleton.elim _ _
  have hemb : ((cfg0.win 4).blk t).view.emb (ix3 (0 : Fin 1) r q) = ix3 (⟨t.val, point_lt t⟩ : Fin 128) r q := by
    funext a; apply Fin.ext
    match a with
    | ⟨0, _⟩ => show win0_4.index t (0 : Fin 3) * 1 + 1 * 0 = t.val; omega
    | ⟨1, _⟩ => show win0_4.index t (1 : Fin 3) * 960 + 1 * r.val = r.val; omega
    | ⟨2, _⟩ => show win0_4.index t (2 : Fin 3) * 256 + 1 * q.val = q.val; omega
  show k0_pay3 (F := Ideal) (iblk0 V c 0 t) (iblk0 V c 1 t) (iblk0 V c 2 t) (ix3 (0 : Fin 1) r q)
    = monoArr (V c main_v14) (V c main_arg4) (V c main_v13) (((cfg0.win 4).blk t).view.emb (ix3 (0 : Fin 1) r q))
  rw [hemb]
  refine (Stored.mono_apply (iblk0 V c 0 t) (iblk0 V c 1 t) (iblk0 V c 2 t) r q).trans ?_
  show _ = ∑ k : Fin 256, softmaxRow (logit (V c main_v14) (V c main_arg4) (⟨t.val, point_lt t⟩ : Fin 128) r) k
      * V c main_v13 (ix3 (⟨t.val, point_lt t⟩ : Fin 128) k q)
  refine Finset.sum_congr rfl fun k _ => ?_
  rw [read_table]
  refine congrArg (fun l => softmaxRow l k * _) (funext fun k' => ?_)
  exact congrArg₂ (fun a b : EReal => (a + b) * Ideal.ofBits .f32 0x3F000000#32) (read_scores V c t k' r) (read_noise V c t r k')

/-- An array index lies in point `t`'s block of an output window iff its batch coordinate is `t`. -/
theorem mem_slab3 (t : Fin cfg0.N) (i : S128x960x256.Idx) :
    i ∈ ((cfg0.win 3).blk t).view.set ↔ ∀ a : Fin 3, win0_3.index t a * S1x960x256.size a ≤ (i a).val ∧ (i a).val < win0_3.index t a * S1x960x256.size a + S1x960x256.size a := by
  show i ∈ ((View.whole main_v15_0).slice (win0_3.rect t)).set ↔ _
  rw [View.set_slice_whole, Rect.mem_set_unit]
  exact Iff.rfl

theorem mem_slab4 (t : Fin cfg0.N) (i : S128x960x256.Idx) :
    i ∈ ((cfg0.win 4).blk t).view.set ↔ ∀ a : Fin 3, win0_4.index t a * S1x960x256.size a ≤ (i a).val ∧ (i a).val < win0_4.index t a * S1x960x256.size a + S1x960x256.size a := by
  show i ∈ ((View.whole main_v15_1).slice (win0_4.rect t)).set ↔ _
  rw [View.set_slice_whole, Rect.mem_set_unit]
  exact Iff.rfl

/-- The slabs cover the name-weight array. -/
theorem cover3 (i : S128x960x256.Idx) : ∃ t : Fin cfg0.N, (cfg0.win 3).flush t = true ∧ i ∈ ((cfg0.win 3).blk t).view.set := by
  have h0 : (i 0).val < 128 := (i 0).isLt
  have h1 : (i 1).val < 960 := (i 1).isLt
  have h2 : (i 2).val < 256 := (i 2).isLt
  refine ⟨⟨(i 0).val, lt_of_lt_of_eq h0 N_0.symm⟩, flush0_3 _, ?_⟩
  obtain ⟨-, -, -, ⟨e0, e1, e2⟩, -⟩ := block_index ⟨(i 0).val, lt_of_lt_of_eq h0 N_0.symm⟩
  rw [mem_slab3]
  intro a
  match a with
  | ⟨0, _⟩ => show win0_3.index _ (0 : Fin 3) * 1 ≤ (i 0).val ∧ (i 0).val < win0_3.index _ (0 : Fin 3) * 1 + 1; rw [e0]; simp only; omega
  | ⟨1, _⟩ => show win0_3.index _ (1 : Fin 3) * 960 ≤ (i 1).val ∧ (i 1).val < win0_3.index _ (1 : Fin 3) * 960 + 960; rw [e1]; omega
  | ⟨2, _⟩ => show win0_3.index _ (2 : Fin 3) * 256 ≤ (i 2).val ∧ (i 2).val < win0_3.index _ (2 : Fin 3) * 256 + 256; rw [e2]; omega

/-- The slabs cover the lookup array. -/
theorem cover4 (i : S128x960x256.Idx) : ∃ t : Fin cfg0.N, (cfg0.win 4).flush t = true ∧ i ∈ ((cfg0.win 4).blk t).view.set := by
  have h0 : (i 0).val < 128 := (i 0).isLt
  have h1 : (i 1).val < 960 := (i 1).isLt
  have h2 : (i 2).val < 256 := (i 2).isLt
  refine ⟨⟨(i 0).val, lt_of_lt_of_eq h0 N_0.symm⟩, flush0_4 _, ?_⟩
  obtain ⟨-, -, -, -, ⟨e0, e1, e2⟩⟩ := block_index ⟨(i 0).val, lt_of_lt_of_eq h0 N_0.symm⟩
  rw [mem_slab4]
  intro a
  match a with
  | ⟨0, _⟩ => show win0_4.index _ (0 : Fin 3) * 1 ≤ (i 0).val ∧ (i 0).val < win0_4.index _ (0 : Fin 3) * 1 + 1; rw [e0]; simp only; omega
  | ⟨1, _⟩ => show win0_4.index _ (1 : Fin 3) * 960 ≤ (i 1).val ∧ (i 1).val < win0_4.index _ (1 : Fin 3) * 960 + 960; rw [e1]; omega
  | ⟨2, _⟩ => show win0_4.index _ (2 : Fin 3) * 256 ≤ (i 2).val ∧ (i 2).val < win0_4.index _ (2 : Fin 3) * 256 + 256; rw [e2]; omega

/-- After the region the name-weight array is the decoder's `names` of the arrays as the region found them. -/
theorem final_names (c : Dev nD) :
    (dat0 V c).arrAt 3 cfg0.N = namesArr (V c main_v14) (V c main_arg4) :=
  (dat0 V c).arrAt_eq_of_cover 3 _ (fun t _ => flushed_names V c t) cover3

/-- After the region the lookup array is the decoder's `mono` of the arrays as the region found them. -/
theorem final_mono (c : Dev nD) :
    (dat0 V c).arrAt 4 cfg0.N = monoArr (V c main_v14) (V c main_arg4) (V c main_v13) :=
  (dat0 V c).arrAt_eq_of_cover 4 _ (fun t _ => flushed_mono V c t) cover4

end Cert.KernelIdeal.NamesRegion

end
-- ==== Proof.CombineRegion.lean ====
/-
  The second region: the colourized pixels as one whole array.

  The grid has a point per batch element and per run of 64 tile positions: point `t` is batch element `t / 15` and
  run `t % 15`, and every window's block there has block index `(t / 15, t % 15, 0, 0)`. A block element
  `(0, tt, ·, ·)` is the array element at position `(t % 15) * 64 + tt` of that batch element. The body's store, read
  at one element, is the decoder's `colorized` of the blocks, so each point writes back its block of one whole-array
  function, and the blocks cover the array.
-/
import proofs.«108646_j16569983828588_2_alg».proof.Proof.Gen.KernelIdeal.Frame
import proofs.«108646_j16569983828588_2_alg».proof.Proof.Stored
import Idealize.ShloMosaic.Lib.Pipeline.Value

set_option maxRecDepth 16384

noncomputable section

namespace Cert.KernelIdeal.CombineRegion

open Cert.KernelIdeal Cert.KernelIdeal.Gen Cert.Decoder
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The colourized pixels as an array over (batch, position, pixel, channel). -/
def colorArr (M : S128x960x64x4.Idx → EReal) (C : S128x960x4x3.Idx → EReal) : S128x960x64x3.Idx → EReal :=
  fun i => colorized M C ⟨(i 0).val, (i 0).isLt⟩ ⟨(i 1).val, (i 1).isLt⟩ ⟨(i 2).val, (i 2).isLt⟩ ⟨(i 3).val, (i 3).isLt⟩

theorem zero4 : (![0, 0, 0, 0] : Fin 4 → Nat) = fun _ => 0 := funext fun a => by fin_cases a <;> rfl

theorem point_lt (t : Fin cfg1.N) : t.val < 1920 := lt_of_lt_of_eq t.isLt N_1

/-- At point `t` every window's block index is `(t / 15, t % 15, 0, 0)`: decided over the 1920 points. -/
theorem block_index : ∀ t : Fin cfg1.N,
    (win1_0.index t (0 : Fin 4) = t.val / 15 ∧ win1_0.index t (1 : Fin 4) = t.val % 15 ∧ win1_0.index t (2 : Fin 4) = 0 ∧ win1_0.index t (3 : Fin 4) = 0)
    ∧ (win1_1.index t (0 : Fin 4) = t.val / 15 ∧ win1_1.index t (1 : Fin 4) = t.val % 15 ∧ win1_1.index t (2 : Fin 4) = 0 ∧ win1_1.index t (3 : Fin 4) = 0)
    ∧ (win1_2.index t (0 : Fin 4) = t.val / 15 ∧ win1_2.index t (1 : Fin 4) = t.val % 15 ∧ win1_2.index t (2 : Fin 4) = 0 ∧ win1_2.index t (3 : Fin 4) = 0) :=
  (by decide +kernel : ∀ t : Fin grid1.N, _)

/-- The batch element of a point. -/
def batchOf (t : Fin cfg1.N) : Fin 128 := ⟨t.val / 15, by have := point_lt t; omega⟩
/-- The tile position of element `tt` of a point's run. -/
def posOf (t : Fin cfg1.N) (tt : Fin 64) : Fin 960 := ⟨t.val % 15 * 64 + tt.val, by have := tt.isLt; omega⟩

/-- The lookup's block at point `t` is the array at the point's batch element and positions. -/
theorem read_lookup (c : Dev nD) (t : Fin cfg1.N) (tt : Fin 64) (px : Fin 64) (g : Fin 4) :
    iblk1 V c 0 t (ix4 (0 : Fin 1) tt px g) = V c main_v39 (ix4 (batchOf t) (posOf t tt) px g) := by
  obtain ⟨⟨e0, e1, e2, e3⟩, -⟩ := block_index t
  show V c main_v39 (((cfg1.win 0).blk t).view.emb (ix4 (0 : Fin 1) tt px g)) = _
  refine congrArg _ (funext fun a => Fin.ext ?_)
  match a with
  | ⟨0, _⟩ => show win1_0.index t (0 : Fin 4) * 1 + 1 * 0 = t.val / 15; omega
  | ⟨1, _⟩ => show win1_0.index t (1 : Fin 4) * 64 + 1 * tt.val = t.val % 15 * 64 + tt.val; omega
  | ⟨2, _⟩ => show win1_0.index t (2 : Fin 4) * 64 + 1 * px.val = px.val; omega
  | ⟨3, _⟩ => show win1_0.index t (3 : Fin 4) * 4 + 1 * g.val = g.val; omega

/-- The palette entries' block at point `t` is the array at the point's batch element and positions. -/
theorem read_palette (c : Dev nD) (t : Fin cfg1.N) (tt : Fin 64) (g : Fin 4) (ch : Fin 3) :
    iblk1 V c 1 t (ix4 (0 : Fin 1) tt g ch) = V c main_v38 (ix4 (batchOf t) (posOf t tt) g ch) := by
  obtain ⟨-, ⟨e0, e1, e2, e3⟩, -⟩ := block_index t
  show V c main_v38 (((cfg1.win 1).blk t).view.emb (ix4 (0 : Fin 1) tt g ch)) = _
  refine congrArg _ (funext fun a => Fin.ext ?_)
  match a with
  | ⟨0, _⟩ => show win1_1.index t (0 : Fin 4) * 1 + 1 * 0 = t.val / 15; omega
  | ⟨1, _⟩ => show win1_1.index t (1 : Fin 4) * 64 + 1 * tt.val = t.val % 15 * 64 + tt.val; omega
  | ⟨2, _⟩ => show win1_1.index t (2 : Fin 4) * 4 + 1 * g.val = g.val; omega
  | ⟨3, _⟩ => show win1_1.index t (3 : Fin 4) * 3 + 1 * ch.val = ch.val; omega

/-- Point `t` writes back its block of the colourized pixels of the arrays as the region finds them. -/
theorem flushed_color (c : Dev nD) (t : Fin cfg1.N) :
    (dat1 V c).flushed 2 t = ((cfg1.win 2).blk t).view.read (Elt Ideal) (colorArr (V c main_v39) (V c main_v38)) := by
  show (cfg1.win 2).cut (grid1.coords t) ((dat1 V c).after 2 t) = _
  rw [after1_2]
  unfold out1_2
  rw [View.canon_unit_zero zero4]
  simp only [View.ld_unit_zero (S := S1x64x64x4) zero4, View.ld_unit_zero (S := S1x64x4x3) zero4]
  obtain ⟨-, -, ⟨e0, e1, e2, e3⟩⟩ := block_index t
  funext y
  obtain ⟨z, tt, px, ch, rfl⟩ : ∃ (z : Fin 1) (tt : Fin 64) (px : Fin 64) (ch : Fin 3), y = ix4 z tt px ch :=
    ⟨y 0, y 1, y 2, y 3, eq_ix4 y⟩
  obtain rfl : z = 0 := Subsingleton.elim _ _
  have hemb : ((cfg1.win 2).blk t).view.emb (ix4 (0 : Fin 1) tt px ch) = ix4 (batchOf t) (posOf t tt) px ch := by
    funext a; apply Fin.ext
    match a with
    | ⟨0, _⟩ => show win1_2.index t (0 : Fin 4) * 1 + 1 * 0 = t.val / 15; omega
    | ⟨1, _⟩ => show win1_2.index t (1 : Fin 4) * 64 + 1 * tt.val = t.val % 15 * 64 + tt.val; omega
    | ⟨2, _⟩ => show win1_2.index t (2 : Fin 4) * 64 + 1 * px.val = px.val; omega
    | ⟨3, _⟩ => show win1_2.index t (3 : Fin 4) * 3 + 1 * ch.val = ch.val; omega
  show k1_pay1 (F := Ideal) (iblk1 V c 0 t) (iblk1 V c 1 t) (ix4 (0 : Fin 1) tt px ch)
    = colorArr (V c main_v39) (V c main_v38) (((cfg1.win 2).blk t).view.emb (ix4 (0 : Fin 1) tt px ch))
  rw [hemb]
  refine (Stored.colorized_apply (iblk1 V c 0 t) (iblk1 V c 1 t) tt px ch).trans ?_
  show _ = squash (blend (V c main_v39) (V c main_v38) (batchOf t) (posOf t tt) px ch)
  rw [read_lookup, read_lookup, read_lookup, read_lookup, read_palette, read_palette, read_palette, read_palette]
  rfl

/-- An array index lies in point `t`'s block iff each coordinate is in the block's range. -/
theorem mem_block (t : Fin cfg1.N) (i : S128x960x64x3.Idx) :
    i ∈ ((cfg1.win 2).blk t).view.set ↔ ∀ a : Fin 4, win1_2.index t a * S1x64x64x3.size a ≤ (i a).val ∧ (i a).val < win1_2.index t a * S1x64x64x3.size a + S1x64x64x3.size a := by
  show i ∈ ((View.whole main_v40).slice (win1_2.rect t)).set ↔ _
  rw [View.set_slice_whole, Rect.mem_set_unit]
  exact Iff.rfl

/-- The blocks cover the array: position `p` of batch element `b` lies in the block of point `b * 15 + p / 64`. -/
theorem cover (i : S128x960x64x3.Idx) : ∃ t : Fin cfg1.N, (cfg1.win 2).flush t = true ∧ i ∈ ((cfg1.win 2).blk t).view.set := by
  have h0 : (i 0).val < 128 := (i 0).isLt
  have h1 : (i 1).val < 960 := (i 1).isLt
  have h2 : (i 2).val < 64 := (i 2).isLt
  have h3 : (i 3).val < 3 := (i 3).isLt
  have ht : (i 0).val * 15 + (i 1).val / 64 < cfg1.N := lt_of_lt_of_eq (by omega) N_1.symm
  refine ⟨⟨(i 0).val * 15 + (i 1).val / 64, ht⟩, flush1_2 _, ?_⟩
  obtain ⟨-, -, ⟨e0, e1, e2, e3⟩⟩ := block_index ⟨(i 0).val * 15 + (i 1).val / 64, ht⟩
  rw [mem_block]
  intro a
  match a with
  | ⟨0, _⟩ => show win1_2.index _ (0 : Fin 4) * 1 ≤ (i 0).val ∧ (i 0).val < win1_2.index _ (0 : Fin 4) * 1 + 1; rw [e0]; simp only; omega
  | ⟨1, _⟩ => show win1_2.index _ (1 : Fin 4) * 64 ≤ (i 1).val ∧ (i 1).val < win1_2.index _ (1 : Fin 4) * 64 + 64; rw [e1]; simp only; omega
  | ⟨2, _⟩ => show win1_2.index _ (2 : Fin 4) * 64 ≤ (i 2).val ∧ (i 2).val < win1_2.index _ (2 : Fin 4) * 64 + 64; rw [e2]; omega
  | ⟨3, _⟩ => show win1_2.index _ (3 : Fin 4) * 3 ≤ (i 3).val ∧ (i 3).val < win1_2.index _ (3 : Fin 4) * 3 + 3; rw [e3]; omega

/-- After the region the output array is the decoder's `colorized` of the arrays as the region found them. -/
theorem final_color (c : Dev nD) :
    (dat1 V c).arrAt 2 cfg1.N = colorArr (V c main_v39) (V c main_v38) :=
  (dat1 V c).arrAt_eq_of_cover 2 _ (fun t _ => flushed_color V c t) cover

end Cert.KernelIdeal.CombineRegion

end
-- ==== Proof.KernelValue.lean ====
/-
  What the idealized kernel program's result buffers hold after its run, as functions of the argument arrays.

  The last boundary's contents are walked back through the five stretches. A buffer a stretch does not write keeps
  its contents; a host stretch's results are its operations' terms of what it found; the first region leaves the
  name weights and the soft tile lookup (the decoder's `names` and `mono` of the reshaped name scores, the noise
  and the pattern table); the second leaves the colourized pixels of the lookup recast to pixels by gray levels and
  of the palette entries recast to positions. The pattern table, the palette weights and the palette entries are
  produced by host operations that are, operation for operation, the reference program's, so they are stated as the
  reference's own stages of the argument arrays.
-/
import proofs.«108646_j16569983828588_2_alg».proof.Proof.KernelRun
import proofs.«108646_j16569983828588_2_alg».proof.Proof.NamesRegion
import proofs.«108646_j16569983828588_2_alg».proof.Proof.CombineRegion
import proofs.«108646_j16569983828588_2_alg».proof.Proof.Gen.ReferenceIdeal.Read
import Idealize.ShloMosaic.Lib.StableHlo.Run

set_option maxRecDepth 16384

noncomputable section

namespace Cert.KernelIdeal.Whole

open Cert.KernelIdeal Cert.KernelIdeal.Gen Cert.Decoder
open Idealize.ShloMosaic Idealize.ShloMosaic.TcCoe Idealize.SL.Sem Idealize.ShloMosaic.StableHlo
open Cert.KernelIdeal.NamesRegion Cert.KernelIdeal.CombineRegion
open Cert.ReferenceIdeal.Read (val_main_v0 val_main_v29 val_main_v45 val_main_v53)

variable (m : (ℓ : Loc nD τ sig) → Buf (Elt Ideal) ℓ) (ρ : Dev nD → PrngReg) (c : Dev nD)

/-- A buffer that no operation of a host stretch writes keeps its contents over the stretch. -/
local macro "keeps" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.reshape_writes, Finset.mem_singleton]
  repeat' apply And.intro
  all_goals exact StableHlo.devRef_ne_of_ne (by decide)))

/-! ## The argument arrays at the first region's entry and exit -/

theorem entry_arg0 : W1 m ρ c (Proc.devRef .tc main_arg0) = m ((c.tc : Thread nD τ).loc main_arg0) := by
  show StableHlo.after hostOps0 (W0 m ρ c) (Proc.devRef .tc main_arg0) = W0 m ρ c (Proc.devRef .tc main_arg0); keeps
theorem entry_arg1 : W1 m ρ c (Proc.devRef .tc main_arg1) = m ((c.tc : Thread nD τ).loc main_arg1) := by
  show StableHlo.after hostOps0 (W0 m ρ c) (Proc.devRef .tc main_arg1) = W0 m ρ c (Proc.devRef .tc main_arg1); keeps
theorem entry_arg2 : W1 m ρ c (Proc.devRef .tc main_arg2) = m ((c.tc : Thread nD τ).loc main_arg2) := by
  show StableHlo.after hostOps0 (W0 m ρ c) (Proc.devRef .tc main_arg2) = W0 m ρ c (Proc.devRef .tc main_arg2); keeps
theorem entry_arg3 : W1 m ρ c (Proc.devRef .tc main_arg3) = m ((c.tc : Thread nD τ).loc main_arg3) := by
  show StableHlo.after hostOps0 (W0 m ρ c) (Proc.devRef .tc main_arg3) = W0 m ρ c (Proc.devRef .tc main_arg3); keeps
theorem entry_arg4 : W1 m ρ c (Proc.devRef .tc main_arg4) = m ((c.tc : Thread nD τ).loc main_arg4) := by
  show StableHlo.after hostOps0 (W0 m ρ c) (Proc.devRef .tc main_arg4) = W0 m ρ c (Proc.devRef .tc main_arg4); keeps
theorem entry_arg5 : W1 m ρ c (Proc.devRef .tc main_arg5) = m ((c.tc : Thread nD τ).loc main_arg5) := by
  show StableHlo.after hostOps0 (W0 m ρ c) (Proc.devRef .tc main_arg5) = W0 m ρ c (Proc.devRef .tc main_arg5); keeps

theorem exit_arg2 : W2 m ρ c (Proc.devRef .tc main_arg2) = m ((c.tc : Thread nD τ).loc main_arg2) :=
  (W2_of_ne m ρ c main_arg2 (by decide)).trans (entry_arg2 m ρ c)
theorem exit_arg3 : W2 m ρ c (Proc.devRef .tc main_arg3) = m ((c.tc : Thread nD τ).loc main_arg3) :=
  (W2_of_ne m ρ c main_arg3 (by decide)).trans (entry_arg3 m ρ c)
theorem exit_arg5 : W2 m ρ c (Proc.devRef .tc main_arg5) = m ((c.tc : Thread nD τ).loc main_arg5) :=
  (W2_of_ne m ρ c main_arg5 (by decide)).trans (entry_arg5 m ρ c)

/-! ## What the first host stretch computes -/

/-- The reshaped name scores the first region stages. -/
theorem entry_scores : V1 m ρ c main_v14 = val_main_v0 (F := Ideal) (m ((c.tc : Thread nD τ).loc main_arg0)) := by
  show StableHlo.after hostOps0 (W0 m ρ c) (Proc.devRef .tc main_v14) = _
  after_results
  rfl

/-- The pattern table: the level softmax of the re-laid patterns, the reference's own stage. -/
theorem entry_table : V1 m ρ c main_v13 = val_main_v29 (F := Ideal) (m ((c.tc : Thread nD τ).loc main_arg1)) := by
  show StableHlo.after hostOps0 (W0 m ρ c) (Proc.devRef .tc main_v13) = _
  after_results_simp
  rfl

/-! ## The results -/

/-- The palette entries are the argument array itself. -/
theorem out_palettes : W5 m ρ c (Proc.devRef .tc main_arg3) = m ((c.tc : Thread nD τ).loc main_arg3) :=
  W5_main_arg3 m ρ c

/-- The pattern table ends as the first host stretch left it. -/
theorem out_table : W5 m ρ c (Proc.devRef .tc main_v13) = val_main_v29 (F := Ideal) (m ((c.tc : Thread nD τ).loc main_arg1)) :=
  calc W5 m ρ c (Proc.devRef .tc main_v13)
    _ = W4 m ρ c (Proc.devRef .tc main_v13) := by
          show StableHlo.after hostOps2 (W4 m ρ c) (Proc.devRef .tc main_v13) = _; keeps
    _ = W3 m ρ c (Proc.devRef .tc main_v13) := W4_of_ne m ρ c main_v13 (by decide)
    _ = W2 m ρ c (Proc.devRef .tc main_v13) := by
          show StableHlo.after hostOps1 (W2 m ρ c) (Proc.devRef .tc main_v13) = _; keeps
    _ = (dat0 (V1 m ρ) c).arrAt 2 cfg0.N := W2_arr m ρ c 2
    _ = (dat0 (V1 m ρ) c).A 2 := (dat0 (V1 m ρ) c).arrAt_in 2 rfl _
    _ = V1 m ρ c main_v13 := A_eq0 (V1 m ρ) c 2
    _ = _ := entry_table m ρ c

/-- The palette weights: the second host stretch's softmax of the re-laid attributes plus noise, the reference's own
    stage. -/
theorem out_weights : W5 m ρ c (Proc.devRef .tc main_v31)
    = val_main_v45 (F := Ideal) (m ((c.tc : Thread nD τ).loc main_arg2)) (m ((c.tc : Thread nD τ).loc main_arg5)) :=
  calc W5 m ρ c (Proc.devRef .tc main_v31)
    _ = W4 m ρ c (Proc.devRef .tc main_v31) := by
          show StableHlo.after hostOps2 (W4 m ρ c) (Proc.devRef .tc main_v31) = _; keeps
    _ = W3 m ρ c (Proc.devRef .tc main_v31) := W4_of_ne m ρ c main_v31 (by decide)
    _ = _ := by
          show StableHlo.after hostOps1 (W2 m ρ c) (Proc.devRef .tc main_v31) = _
          after_results_simp
          rw [exit_arg2, exit_arg5]
          rfl

/-- The name weights: the decoder's `names` of the reshaped name scores and the noise. -/
theorem out_names : W5 m ρ c (Proc.devRef .tc main_v15_0)
    = namesArr (val_main_v0 (F := Ideal) (m ((c.tc : Thread nD τ).loc main_arg0))) (m ((c.tc : Thread nD τ).loc main_arg4)) :=
  calc W5 m ρ c (Proc.devRef .tc main_v15_0)
    _ = W4 m ρ c (Proc.devRef .tc main_v15_0) := by
          show StableHlo.after hostOps2 (W4 m ρ c) (Proc.devRef .tc main_v15_0) = _; keeps
    _ = W3 m ρ c (Proc.devRef .tc main_v15_0) := W4_of_ne m ρ c main_v15_0 (by decide)
    _ = W2 m ρ c (Proc.devRef .tc main_v15_0) := by
          show StableHlo.after hostOps1 (W2 m ρ c) (Proc.devRef .tc main_v15_0) = _; keeps
    _ = (dat0 (V1 m ρ) c).arrAt 3 cfg0.N := W2_arr m ρ c 3
    _ = namesArr (V1 m ρ c main_v14) (V1 m ρ c main_arg4) := final_names (V1 m ρ) c
    _ = _ := by rw [entry_scores, show V1 m ρ c main_arg4 = _ from entry_arg4 m ρ c]

/-- The soft tile lookup the first region leaves. -/
theorem exit_lookup : W2 m ρ c (Proc.devRef .tc main_v15_1)
    = monoArr (val_main_v0 (F := Ideal) (m ((c.tc : Thread nD τ).loc main_arg0))) (m ((c.tc : Thread nD τ).loc main_arg4))
        (val_main_v29 (F := Ideal) (m ((c.tc : Thread nD τ).loc main_arg1))) :=
  calc W2 m ρ c (Proc.devRef .tc main_v15_1)
    _ = (dat0 (V1 m ρ) c).arrAt 4 cfg0.N := W2_arr m ρ c 4
    _ = monoArr (V1 m ρ c main_v14) (V1 m ρ c main_arg4) (V1 m ρ c main_v13) := final_mono (V1 m ρ) c
    _ = _ := by rw [entry_scores, entry_table, show V1 m ρ c main_arg4 = _ from entry_arg4 m ρ c]

/-- The lookup recast to pixels by gray levels, as the second region stages it. -/
theorem entry_lookup : V3 m ρ c main_v39
    = shapeCast S128x960x64x4 (monoArr (val_main_v0 (F := Ideal) (m ((c.tc : Thread nD τ).loc main_arg0))) (m ((c.tc : Thread nD τ).loc main_arg4))
        (val_main_v29 (F := Ideal) (m ((c.tc : Thread nD τ).loc main_arg1)))) Gen.shapeCasts_S128x960x256_S128x960x64x4 := by
  show StableHlo.after hostOps1 (W2 m ρ c) (Proc.devRef .tc main_v39) = _
  after_results
  rw [exit_lookup]
  rfl

/-- The palette entries per position, as the second region stages them: the reference's own stage, recast. -/
theorem entry_palette : V3 m ρ c main_v38
    = shapeCast S128x960x4x3 (val_main_v53 (F := Ideal) (m ((c.tc : Thread nD τ).loc main_arg2)) (m ((c.tc : Thread nD τ).loc main_arg3))
        (m ((c.tc : Thread nD τ).loc main_arg5))) Gen.shapeCasts_S128x30x32x4x3_S128x960x4x3 := by
  show StableHlo.after hostOps1 (W2 m ρ c) (Proc.devRef .tc main_v38) = _
  after_results_simp
  rw [exit_arg2, exit_arg3, exit_arg5]
  rfl

/-- The image: the colourized pixels, re-laid from tile order to pixel order. -/
theorem out_image : W5 m ρ c (Proc.devRef .tc main_v43)
    = shapeCast S128x3x240x256 (transpose S128x3x30x8x32x8 [0, 5, 1, 3, 2, 4] (shapeCast S128x30x32x8x8x3
        (colorArr
          (shapeCast S128x960x64x4 (monoArr (val_main_v0 (F := Ideal) (m ((c.tc : Thread nD τ).loc main_arg0))) (m ((c.tc : Thread nD τ).loc main_arg4))
            (val_main_v29 (F := Ideal) (m ((c.tc : Thread nD τ).loc main_arg1)))) Gen.shapeCasts_S128x960x256_S128x960x64x4)
          (shapeCast S128x960x4x3 (val_main_v53 (F := Ideal) (m ((c.tc : Thread nD τ).loc main_arg2)) (m ((c.tc : Thread nD τ).loc main_arg3))
            (m ((c.tc : Thread nD τ).loc main_arg5))) Gen.shapeCasts_S128x30x32x4x3_S128x960x4x3))
        Gen.shapeCasts_S128x960x64x3_S128x30x32x8x8x3) Gen.transposes_S128x30x32x8x8x3_S128x3x30x8x32x8_0_5_1_3_2_4)
        Gen.shapeCasts_S128x3x30x8x32x8_S128x3x240x256 := by
  show StableHlo.after hostOps2 (W4 m ρ c) (Proc.devRef .tc main_v43) = _
  after_results
  have h40 : W4 m ρ c (Proc.devRef .tc main_v40) = colorArr (V3 m ρ c main_v39) (V3 m ρ c main_v38) :=
    (W4_arr m ρ c 2).trans (final_color (V3 m ρ) c)
  rw [h40, entry_lookup, entry_palette]
  rfl

end Cert.KernelIdeal.Whole

end
-- ==== Proof.Agree.lean ====
/-
  The reference program's results are the kernel program's functions of the argument arrays.

  Name weights: the reference's row softmax, read at one element, is the decoder's `names` of the reshaped name scores
  and the noise. Image: the reference sums the products over the gray levels, re-lays the sums from tile order to pixel
  order and then squashes; the kernel squashes first and re-lays afterwards. A re-laying only moves elements, so
  squashing commutes with it, and the summed products are the decoder's `blend` of the same two arrays the kernel's
  second region stages.
-/
import proofs.«108646_j16569983828588_2_alg».proof.Proof.RefValue
import proofs.«108646_j16569983828588_2_alg».proof.Proof.KernelValue

set_option maxRecDepth 16384

noncomputable section

namespace Cert.Agree

open Cert.Decoder Cert.ReferenceIdeal.Read
open Idealize.ShloMosaic Idealize.ShloMosaic.ValueIdx
open Cert.KernelIdeal.NamesRegion Cert.KernelIdeal.CombineRegion

variable (A0 : (⟨Cert.ReferenceIdeal.S128x256x30x32, .f32⟩ : BufTy).Contents (Elt Ideal))
  (A1 : (⟨Cert.ReferenceIdeal.S128x4x128x128, .f32⟩ : BufTy).Contents (Elt Ideal))
  (A2 : (⟨Cert.ReferenceIdeal.S128x8x15x16, .f32⟩ : BufTy).Contents (Elt Ideal))
  (A3 : (⟨Cert.ReferenceIdeal.S128x8x12, .f32⟩ : BufTy).Contents (Elt Ideal))
  (A4 : (⟨Cert.ReferenceIdeal.S128x960x256, .f32⟩ : BufTy).Contents (Elt Ideal))
  (A5 : (⟨Cert.ReferenceIdeal.S128x240x8, .f32⟩ : BufTy).Contents (Elt Ideal))

/-- The reference's name weights, as a whole array. -/
theorem names_eq : val_main_v15 (F := Ideal) A0 A4 = namesArr (val_main_v0 (F := Ideal) A0) A4 := by
  funext i
  obtain ⟨b, r, j, rfl⟩ : ∃ (b : Fin 128) (r : Fin 960) (j : Fin 256), i = ix3 b r j := ⟨i 0, i 1, i 2, eq_ix3 i⟩
  exact Cert.ReferenceIdeal.RefValue.names_apply A0 A4 b r j

/-- The reference's soft tile lookup, as a whole array. -/
theorem mono_eq : val_main_v46 (F := Ideal) A0 A1 A4
    = monoArr (val_main_v0 (F := Ideal) A0) A4 (val_main_v29 (F := Ideal) A1) := by
  funext i
  obtain ⟨b, r, q, rfl⟩ : ∃ (b : Fin 128) (r : Fin 960) (q : Fin 256), i = ix3 b r q := ⟨i 0, i 1, i 2, eq_ix3 i⟩
  exact Cert.ReferenceIdeal.RefValue.mono_apply A0 A1 A4 b r q

/-- Squashing the reference's summed products gives the colourized pixels of the lookup recast to pixels by levels and
    the palette entries recast to positions. -/
theorem color_eq :
    (fun i => squash (val_main_v58 (F := Ideal) A0 A1 A2 A3 A4 A5 i))
      = colorArr
          (shapeCast Cert.KernelIdeal.S128x960x64x4 (monoArr (val_main_v0 (F := Ideal) A0) A4 (val_main_v29 (F := Ideal) A1))
            Cert.KernelIdeal.Gen.shapeCasts_S128x960x256_S128x960x64x4)
          (shapeCast Cert.KernelIdeal.S128x960x4x3 (val_main_v53 (F := Ideal) A2 A3 A5)
            Cert.KernelIdeal.Gen.shapeCasts_S128x30x32x4x3_S128x960x4x3) := by
  funext i
  obtain ⟨b, t, px, ch, rfl⟩ : ∃ (b : Fin 128) (t : Fin 960) (px : Fin 64) (ch : Fin 3), i = ix4 b t px ch :=
    ⟨i 0, i 1, i 2, i 3, eq_ix4 i⟩
  rw [← mono_eq]
  exact congrArg squash (Cert.ReferenceIdeal.RefValue.blend_apply A0 A1 A2 A3 A4 A5
    Cert.KernelIdeal.Gen.shapeCasts_S128x960x256_S128x960x64x4 Cert.KernelIdeal.Gen.shapeCasts_S128x30x32x4x3_S128x960x4x3 b t px ch)

/-- The reference's image — re-lay, then squash — is the re-laying of the squashed sums: a re-laying only moves
    elements. -/
theorem relay_squash :
    val_main_v67 (F := Ideal) A0 A1 A2 A3 A4 A5
      = shapeCast Cert.KernelIdeal.S128x3x240x256 (transpose Cert.KernelIdeal.S128x3x30x8x32x8 [0, 5, 1, 3, 2, 4]
          (shapeCast Cert.KernelIdeal.S128x30x32x8x8x3 (fun i => squash (val_main_v58 (F := Ideal) A0 A1 A2 A3 A4 A5 i))
            Cert.KernelIdeal.Gen.shapeCasts_S128x960x64x3_S128x30x32x8x8x3)
          Cert.KernelIdeal.Gen.transposes_S128x30x32x8x8x3_S128x3x30x8x32x8_0_5_1_3_2_4)
          Cert.KernelIdeal.Gen.shapeCasts_S128x3x30x8x32x8_S128x3x240x256 := by
  funext j
  rfl

/-- The reference's image is the kernel's. -/
theorem image_eq :
    val_main_v67 (F := Ideal) A0 A1 A2 A3 A4 A5
      = shapeCast Cert.KernelIdeal.S128x3x240x256 (transpose Cert.KernelIdeal.S128x3x30x8x32x8 [0, 5, 1, 3, 2, 4]
          (shapeCast Cert.KernelIdeal.S128x30x32x8x8x3
            (colorArr
              (shapeCast Cert.KernelIdeal.S128x960x64x4 (monoArr (val_main_v0 (F := Ideal) A0) A4 (val_main_v29 (F := Ideal) A1))
                Cert.KernelIdeal.Gen.shapeCasts_S128x960x256_S128x960x64x4)
              (shapeCast Cert.KernelIdeal.S128x960x4x3 (val_main_v53 (F := Ideal) A2 A3 A5)
                Cert.KernelIdeal.Gen.shapeCasts_S128x30x32x4x3_S128x960x4x3))
            Cert.KernelIdeal.Gen.shapeCasts_S128x960x64x3_S128x30x32x8x8x3)
          Cert.KernelIdeal.Gen.transposes_S128x30x32x8x8x3_S128x3x30x8x32x8_0_5_1_3_2_4)
          Cert.KernelIdeal.Gen.shapeCasts_S128x3x30x8x32x8_S128x3x240x256 := by
  rw [relay_squash, color_eq]

end Cert.Agree

end
-- ==== Proof.lean ====
/-
  The tile decoder: a Pallas kernel program against its jnp reference, equal over the extended reals.

  The five results are the image, the name weights, the pattern table, the palette weights and the palette entries.
  The pattern table, the palette weights and the palette entries are produced by the same host operations in both
  programs. The name weights are a row softmax of temperature-scaled logits: the kernel multiplies by one half where
  the reference divides by two, and takes the row maximum directly where the reference takes its maximum with −∞
  once more. The image is the squashed blend of the soft tile lookup with the palette entries: the kernel's lookup is
  a matrix product per batch element, the reference's a batched contraction — the same sums —, and the kernel
  squashes before the tile-to-pixel re-laying where the reference squashes after it.
-/
import proofs.«108646_j16569983828588_2_alg».proof.Defs
import proofs.«108646_j16569983828588_2_alg».proof.Proof.Gen.Kernel
import proofs.«108646_j16569983828588_2_alg».proof.Proof.Gen.Kernel.Skeleton
import proofs.«108646_j16569983828588_2_alg».proof.Proof.Gen.Kernel.Launch
import proofs.«108646_j16569983828588_2_alg».proof.Proof.Gen.Kernel.Points
import proofs.«108646_j16569983828588_2_alg».proof.Proof.Gen.Kernel.Frame
import proofs.«108646_j16569983828588_2_alg».proof.Proof.Gen.KernelIdeal
import proofs.«108646_j16569983828588_2_alg».proof.Proof.Gen.KernelIdeal.Skeleton
import proofs.«108646_j16569983828588_2_alg».proof.Proof.Gen.KernelIdeal.Launch
import proofs.«108646_j16569983828588_2_alg».proof.Proof.Gen.KernelIdeal.Points
import proofs.«108646_j16569983828588_2_alg».proof.Proof.Gen.KernelIdeal.Frame
import proofs.«108646_j16569983828588_2_alg».proof.Proof.Gen.ReferenceIdeal
import proofs.«108646_j16569983828588_2_alg».proof.Proof.Gen.Pre_finite_inputs
import proofs.«108646_j16569983828588_2_alg».proof.Proof.Gen.ReferenceIdeal.Run
import proofs.«108646_j16569983828588_2_alg».proof.Proof.Gen.ReferenceIdeal.Read
import proofs.«108646_j16569983828588_2_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2.2.2)
    (Cert.ReferenceIdeal.Value.run (F := Ideal) m ρ)

/-- The ideal pass rewrote nothing. -/
theorem preserves : Cert.preserves_Kernel_KernelIdeal := trivial

/-- Both programs end with every result at one function of the argument arrays. -/
theorem algebraic : Cert.algebraic_KernelIdeal_ReferenceIdeal := by
  intro m ρ m' ρ' _ hagree
  refine ⟨fun c => Cert.KernelIdeal.Gen.W5 m ρ c (Proc.devRef .tc Cert.KernelIdeal.main_v43),
    fun c => Cert.KernelIdeal.Gen.W5 m ρ c (Proc.devRef .tc Cert.KernelIdeal.main_v15_0),
    fun c => Cert.KernelIdeal.Gen.W5 m ρ c (Proc.devRef .tc Cert.KernelIdeal.main_v13),
    fun c => Cert.KernelIdeal.Gen.W5 m ρ c (Proc.devRef .tc Cert.KernelIdeal.main_v31),
    fun c => Cert.KernelIdeal.Gen.W5 m ρ c (Proc.devRef .tc Cert.KernelIdeal.main_arg3), ?_, ?_⟩
  · exact (θ_run Cert.KernelIdeal.defs _ _).mono (fun r h c =>
      ⟨h c Cert.KernelIdeal.main_v43 (by decide),
       h c Cert.KernelIdeal.main_v15_0 (by decide),
       h c Cert.KernelIdeal.main_v13 (by decide),
       h c Cert.KernelIdeal.main_v31 (by decide),
       h c Cert.KernelIdeal.main_arg3 (by decide),
       (h c Cert.KernelIdeal.main_arg0 (by decide)).trans (Cert.KernelIdeal.Gen.W5_main_arg0 m ρ c),
       (h c Cert.KernelIdeal.main_arg1 (by decide)).trans (Cert.KernelIdeal.Gen.W5_main_arg1 m ρ c),
       (h c Cert.KernelIdeal.main_arg2 (by decide)).trans (Cert.KernelIdeal.Gen.W5_main_arg2 m ρ c),
       (h c Cert.KernelIdeal.main_arg3 (by decide)).trans (Cert.KernelIdeal.Gen.W5_main_arg3 m ρ c),
       (h c Cert.KernelIdeal.main_arg4 (by decide)).trans (Cert.KernelIdeal.Gen.W5_main_arg4 m ρ c),
       (h c Cert.KernelIdeal.main_arg5 (by decide)).trans (Cert.KernelIdeal.Gen.W5_main_arg5 m ρ c)⟩)
      (Cert.KernelIdeal.Whole.run_all m ρ)
  · refine (θ_run Cert.ReferenceIdeal.defs _ _).mono (fun r h c => ?_)
      (Cert.ReferenceIdeal.Value.run (F := Ideal) m' ρ')
    obtain ⟨h0, h1, h2, h3, h4, hargs⟩ := h c
    obtain ⟨e0, e1, e2, e3, e4, e5⟩ := hagree c
    refine ⟨?_, ?_, ?_, ?_, ?_, hargs⟩
    · rw [h0, Cert.ReferenceIdeal.Read.val_main_v67_eq, e0, e1, e2, e3, e4, e5]
      exact (Cert.Agree.image_eq _ _ _ _ _ _).trans (Cert.KernelIdeal.Whole.out_image m ρ c).symm
    · rw [h1, Cert.ReferenceIdeal.Read.val_main_v15_eq, e0, e4]
      exact (Cert.Agree.names_eq _ _).trans (Cert.KernelIdeal.Whole.out_names m ρ c).symm
    · rw [h2, Cert.ReferenceIdeal.Read.val_main_v29_eq, e1]
      exact (Cert.KernelIdeal.Whole.out_table m ρ c).symm
    · rw [h3, Cert.ReferenceIdeal.Read.val_main_v45_eq, e2, e5]
      exact (Cert.KernelIdeal.Whole.out_weights m ρ c).symm
    · rw [h4, e3]
      exact (Cert.KernelIdeal.Whole.out_palettes m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
